-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S320000 : Shape := ⟨1, ![320000]⟩
abbrev S10000x128 : Shape := ⟨2, ![10000, 128]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S256x128 .f32) (main_arg7 : FVec F S128 .f32) (main_arg8 : FVec F S256x128 .f32) (main_arg9 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_v33

def fn {F : FTy → Type} [FloatOps F] (main_arg0 : FVec F S10000x512 .f32) (main_arg1 : IVec S320000 32) (main_arg2 : IVec S320000 32) (main_arg3 : FVec F S10000x128 .f32) (main_arg4 : FVec F S512x256 .f32) (main_arg5 : FVec F S256 .f32) (main_arg6 : FVec F S256x128 .f32) (main_arg7 : FVec F S128 .f32) (main_arg8 : FVec F S256x128 .f32) (main_arg9 : FVec F S128 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x128 .f32 := Host.absf main_arg3
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_v13 main_v16
-- ==== Kernel.lean ====
abbrev S10000x512 : Shape := ⟨2, ![10000, 512]⟩
abbrev S320000 : Shape := ⟨1, ![320000]⟩
abbrev S10000x128 : Shape := ⟨2, ![10000, 128]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩
abbrev S10000 : Shape := ⟨1, ![10000]⟩
abbrev S320000x1 : Shape := ⟨2, ![320000, 1]⟩
abbrev S10000x1 : Shape := ⟨2, ![10000, 1]⟩
abbrev S10000x256 : Shape := ⟨2, ![10000, 256]⟩
abbrev S1000x512 : Shape := ⟨2, ![1000, 512]⟩
abbrev S1000x1 : Shape := ⟨2, ![1000, 1]⟩
abbrev S1000x256 : Shape := ⟨2, ![1000, 256]⟩
abbrev S320000x256 : Shape := ⟨2, ![320000, 256]⟩
abbrev S1x256 : Shape := ⟨2, ![1, 256]⟩
abbrev S256x256 : Shape := ⟨2, ![256, 256]⟩
abbrev S1000x128 : Shape := ⟨2, ![1000, 128]⟩
abbrev S10000x10000 : Shape := ⟨2, ![10000, 10000]⟩
abbrev S200x128 : Shape := ⟨2, ![200, 128]⟩
abbrev S200x10000 : Shape := ⟨2, ![200, 10000]⟩

abbrev nBuf : Space → Nat
  | .hbm => 65
  | .vmem => 31
  | .smem => 0
  | _ => 0

abbrev bufTy : (tb : Table) → Fin (tcTables nBuf tb) → BufTy
  | .hbm, ⟨0, _⟩ => ⟨S10000x512, .f32⟩
  | .hbm, ⟨1, _⟩ => ⟨S320000, .i32⟩
  | .hbm, ⟨2, _⟩ => ⟨S320000, .i32⟩
  | .hbm, ⟨3, _⟩ => ⟨S10000x128, .f32⟩
  | .hbm, ⟨4, _⟩ => ⟨S512x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S_, .f32⟩
  | .hbm, ⟨11, _⟩ => ⟨S320000, .f32⟩
  | .hbm, ⟨12, _⟩ => ⟨S_, .f32⟩
  | .hbm, ⟨13, _⟩ => ⟨S10000, .f32⟩
  | .hbm, ⟨14, _⟩ => ⟨S320000x1, .i32⟩
  | .hbm, ⟨15, _⟩ => ⟨S10000, .f32⟩
  | .hbm, ⟨16, _⟩ => ⟨S_, .f32⟩
  | .hbm, ⟨17, _⟩ => ⟨S_, .f32⟩
  | .hbm, ⟨18, _⟩ => ⟨S10000, .f32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S320000x1, .i32⟩
  | .hbm, ⟨23, _⟩ => ⟨S10000, .f32⟩
  | .hbm, ⟨24, _⟩ => ⟨S_, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S10000, .f32⟩
  | .hbm, ⟨29, _⟩ => ⟨S10000x1, .f32⟩
  | .hbm, ⟨30, _⟩ => ⟨S10000, .f32⟩
  | .hbm, ⟨31, _⟩ => ⟨S10000x1, .f32⟩
  | .hbm, ⟨32, _⟩ => ⟨S10000x256, .f32⟩
  | .hbm, ⟨33, _⟩ => ⟨S_, .i32⟩
  | .hbm, ⟨34, _⟩ => ⟨S320000, .i32⟩
  | .hbm, ⟨35, _⟩ => ⟨S320000, .i1⟩
  | .hbm, ⟨36, _⟩ => ⟨S_, .i32⟩
  | .hbm, ⟨37, _⟩ => ⟨S320000, .i32⟩
  | .hbm, ⟨38, _⟩ => ⟨S320000, .i32⟩
  | .hbm, ⟨39, _⟩ => ⟨S320000, .i32⟩
  | .hbm, ⟨40, _⟩ => ⟨S320000x1, .i32⟩
  | .hbm, ⟨41, _⟩ => ⟨S320000x256, .f32⟩
  | .hbm, ⟨42, _⟩ => ⟨S_, .f32⟩
  | .hbm, ⟨43, _⟩ => ⟨S10000x256, .f32⟩
  | .hbm, ⟨44, _⟩ => ⟨S320000x1, .i32⟩
  | .hbm, ⟨45, _⟩ => ⟨S10000x256, .f32⟩
  | .hbm, ⟨46, _⟩ => ⟨S10000x256, .f32⟩
  | .hbm, ⟨47, _⟩ => ⟨S_, .i32⟩
  | .hbm, ⟨48, _⟩ => ⟨S320000, .i32⟩
  | .hbm, ⟨49, _⟩ => ⟨S320000, .i1⟩
  | .hbm, ⟨50, _⟩ => ⟨S_, .i32⟩
  | .hbm, ⟨51, _⟩ => ⟨S320000, .i32⟩
  | .hbm, ⟨52, _⟩ => ⟨S320000, .i32⟩
  | .hbm, ⟨53, _⟩ => ⟨S320000, .i32⟩
  | .hbm, ⟨54, _⟩ => ⟨S320000x1, .i32⟩
  | .hbm, ⟨55, _⟩ => ⟨S320000x256, .f32⟩
  | .hbm, ⟨56, _⟩ => ⟨S_, .f32⟩
  | .hbm, ⟨57, _⟩ => ⟨S10000x256, .f32⟩
  | .hbm, ⟨58, _⟩ => ⟨S320000x1, .i32⟩
  | .hbm, ⟨59, _⟩ => ⟨S10000x256, .f32⟩
  | .hbm, ⟨60, _⟩ => ⟨S256x256, .f32⟩
  | .hbm, ⟨61, _⟩ => ⟨S256, .f32⟩
  | .hbm, ⟨62, _⟩ => ⟨S10000x128, .f32⟩
  | .hbm, ⟨63, _⟩ => ⟨S10000x128, .bf16⟩
  | .hbm, ⟨64, _⟩ => ⟨S10000x10000, .f32⟩
  | .local _ .vmem, ⟨0, _⟩ => ⟨S1000x512, .f32⟩
  | .local _ .vmem, ⟨1, _⟩ => ⟨S1000x512, .f32⟩
  | .local _ .vmem, ⟨2, _⟩ => ⟨S512x256, .f32⟩
  | .local _ .vmem, ⟨3, _⟩ => ⟨S1000x1, .f32⟩
  | .local _ .vmem, ⟨4, _⟩ => ⟨S1000x1, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x1, .f32⟩
  | .local _ .vmem, ⟨10, _⟩ => ⟨S1000x1, .f32⟩
  | .local _ .vmem, ⟨11, _⟩ => ⟨S256, .f32⟩
  | .local _ .vmem, ⟨12, _⟩ => ⟨S1000x1, .f32⟩
  | .local _ .vmem, ⟨13, _⟩ => ⟨S1000x1, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S1000x256, .f32⟩
  | .local _ .vmem, ⟨18, _⟩ => ⟨S256x256, .f32⟩
  | .local _ .vmem, ⟨19, _⟩ => ⟨S256, .f32⟩
  | .local _ .vmem, ⟨20, _⟩ => ⟨S1000x1, .f32⟩
  | .local _ .vmem, ⟨21, _⟩ => ⟨S1000x1, .f32⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S200x128, .f32⟩
  | .local _ .vmem, ⟨27, _⟩ => ⟨S200x128, .f32⟩
  | .local _ .vmem, ⟨28, _⟩ => ⟨S10000x128, .bf16⟩
  | .local _ .vmem, ⟨29, _⟩ => ⟨S200x10000, .f32⟩
  | .local _ .vmem, ⟨30, _⟩ => ⟨S200x10000, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S200x10000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S10000_S10000x1_0 : S10000.BroadcastsInDim S10000x1 (![0] : Fin 1 → Fin S10000x1.rank)
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  inb_S1000x256_S1000x256_0_0 : ∀ a, (![0, 0] : Fin 2 → Nat) a + S1000x256.size a ≤ S1000x256.size a
  h_S1000x256 : 0 < S1000x256.numel
  bcast_S_S10000x256 : S_.BroadcastsInDim S10000x256 (![] : Fin 0 → Fin S10000x256.rank)
  shapeCasts_S1000x256_S1000x256 : S1000x256.ShapeCasts S1000x256
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  concatenates_S256x128_S256x128_S256x256_d1 : Shape.Concatenates [S256x128, S256x128] S256x256 1
  concatenates_S128_S128_S256_d0 : Shape.Concatenates [S128, S128] S256 0
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256_S256 : S256.ShapeCasts S256
  slices_S1000x256_o0_0_S1000x128 : S1000x256.Slices ![0, 0] S1000x128
  slices_S1000x256_o0_128_S1000x128 : S1000x256.Slices ![0, 128] S1000x128
  inb_S1000x128_S1000x128_0_0 : ∀ a, (![0, 0] : Fin 2 → Nat) a + S1000x128.size a ≤ S1000x128.size a
  h_S1000x128 : 0 < S1000x128.numel
  inb_S200x128_S200x128_0_0 : ∀ a, (![0, 0] : Fin 2 → Nat) a + S200x128.size a ≤ S200x128.size a
  h_S200x128 : 0 < S200x128.numel
  shapeCasts_S200x128_S200x128 : S200x128.ShapeCasts S200x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  scatter_S10000_S320000x1_S320000_n_0_0_1_wf : ScatterDims.WF S10000 S320000x1 S320000 [] [0] [0] 1
  dot_S1000x512_S512x256_S1000x256_1_0_0_1_n_n_wf : DotDims.WF S1000x512 S512x256 S1000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S1000x256_S256x256_S1000x256_1_0_0_1_n_n_wf : DotDims.WF S1000x256 S256x256 S1000x256 [1] [0] [0] [1] [] []
  dot_S200x128_S10000x128_S200x10000_1_1_0_0_n_n_wf : DotDims.WF S200x128 S10000x128 S200x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S10000x1.size a
  hwx0_2 : ∀ i : grid0.Coords, EltTy.bits .f32 = 32 ∨ (Rect.block (s := S10000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S10000x1.size a
  hwx1_1 : ∀ i : grid1.Coords, EltTy.bits .f32 = 32 ∨ (Rect.block (s := S10000x1) S1000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x1.size a ≤ S10000x1.size a
  hwx1_3 : ∀ i : grid1.Coords, EltTy.bits .f32 = 32 ∨ (Rect.block (s := S10000x1) S1000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x256.size a ≤ S10000x256.size a
  hwx1_4 : ∀ i : grid1.Coords, EltTy.bits .f32 = 32 ∨ (Rect.block (s := S10000x256) S1000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S10000x256.size a
  hwx2_0 : ∀ i : grid2.Coords, EltTy.bits .f32 = 32 ∨ (Rect.block (s := S10000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x1.size a ≤ S10000x1.size a
  hwx2_3 : ∀ i : grid2.Coords, EltTy.bits .f32 = 32 ∨ (Rect.block (s := S10000x1) S1000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x128.size a ≤ S10000x128.size a
  hwx2_4 : ∀ i : grid2.Coords, EltTy.bits .f32 = 32 ∨ (Rect.block (s := S10000x128) S1000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x128.size a ≤ S10000x128.size a
  hwx2_5 : ∀ i : grid2.Coords, EltTy.bits .f32 = 32 ∨ (Rect.block (s := S10000x128) S1000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x128.size a ≤ S10000x128.size a
  hwx3_0 : ∀ i : grid3.Coords, EltTy.bits .f32 = 32 ∨ (Rect.block (s := S10000x128) S200x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S200x10000.size a ≤ S10000x10000.size a
  hwx3_2 : ∀ i : grid3.Coords, EltTy.bits .f32 = 32 ∨ (Rect.block (s := S10000x10000) S200x10000.size (cc3_transform_2 i) (hinb3_2 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S200x128_S10000x128_S200x10000_1_1_0_0_n_n : DotDims S200x128 S10000x128 S200x10000 where
  lhsContracting := [1]
  rhsContracting := [1]
  lhsNonContracting := [0]
  rhsNonContracting := [0]
  lhsBatch := []
  rhsBatch := []
  wf := dot_S200x128_S10000x128_S200x10000_1_1_0_0_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v34) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg3) S1000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v37) S1000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v37) S200x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S200x10000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x512 : Shape := ⟨2, ![10000, 512]⟩
abbrev S320000 : Shape := ⟨1, ![320000]⟩
abbrev S10000x128 : Shape := ⟨2, ![10000, 128]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩
abbrev S10000 : Shape := ⟨1, ![10000]⟩
abbrev S320000x1 : Shape := ⟨2, ![320000, 1]⟩
abbrev S10000x1 : Shape := ⟨2, ![10000, 1]⟩
abbrev S320000x512 : Shape := ⟨2, ![320000, 512]⟩
abbrev S10000x256 : Shape := ⟨2, ![10000, 256]⟩
abbrev S1x256 : Shape := ⟨2, ![1, 256]⟩
abbrev S320000x256 : Shape := ⟨2, ![320000, 256]⟩
abbrev S1x128 : Shape := ⟨2, ![1, 128]⟩
abbrev S128x10000 : Shape := ⟨2, ![128, 10000]⟩
abbrev S10000x10000 : Shape := ⟨2, ![10000, 10000]⟩

abbrev nBuf : Space → Nat
  | .hbm => 155
  | .vmem => 0
  | .smem => 0
  | _ => 0

abbrev hbmTy0_0 (i : Nat) : BufTy := match i % 128 with
  | 0 => ⟨S10000x512, .f32⟩
  | 1 => ⟨S320000, .i32⟩
  | 2 => ⟨S320000, .i32⟩
  | 3 => ⟨S10000x128, .f32⟩
  | 4 => ⟨S512x256, .f32⟩
  | 5 => ⟨S256, .f32⟩
  | 6 => ⟨S256x128, .f32⟩
  | 7 => ⟨S128, .f32⟩
  | 8 => ⟨S256x128, .f32⟩
  | 9 => ⟨S128, .f32⟩
  | 10 => ⟨S_, .f32⟩
  | 11 => ⟨S320000, .f32⟩
  | 12 => ⟨S_, .f32⟩
  | 13 => ⟨S10000, .f32⟩
  | 14 => ⟨S320000x1, .i32⟩
  | 15 => ⟨S10000, .f32⟩
  | 16 => ⟨S_, .f32⟩
  | 17 => ⟨S_, .f32⟩
  | 18 => ⟨S10000, .f32⟩
  | 19 => ⟨S10000, .f32⟩
  | 20 => ⟨S_, .f32⟩
  | 21 => ⟨S10000, .f32⟩
  | 22 => ⟨S320000x1, .i32⟩
  | 23 => ⟨S10000, .f32⟩
  | 24 => ⟨S_, .f32⟩
  | 25 => ⟨S_, .f32⟩
  | 26 => ⟨S10000, .f32⟩
  | 27 => ⟨S10000, .f32⟩
  | 28 => ⟨S10000, .f32⟩
  | 29 => ⟨S10000x1, .f32⟩
  | 30 => ⟨S10000x512, .f32⟩
  | 31 => ⟨S10000x512, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000x512, .f32⟩
  | 41 => ⟨S_, .f32⟩
  | 42 => ⟨S10000x512, .f32⟩
  | 43 => ⟨S320000x1, .i32⟩
  | 44 => ⟨S10000x512, .f32⟩
  | 45 => ⟨S10000, .f32⟩
  | 46 => ⟨S10000x1, .f32⟩
  | 47 => ⟨S10000x512, .f32⟩
  | 48 => ⟨S10000x512, .f32⟩
  | 49 => ⟨S10000x256, .f32⟩
  | 50 => ⟨S1x256, .f32⟩
  | 51 => ⟨S10000x256, .f32⟩
  | 52 => ⟨S10000x256, .f32⟩
  | 53 => ⟨S_, .f32⟩
  | 54 => ⟨S10000x256, .f32⟩
  | 55 => ⟨S10000x256, .f32⟩
  | 56 => ⟨S_, .f32⟩
  | 57 => ⟨S320000, .f32⟩
  | 58 => ⟨S_, .f32⟩
  | 59 => ⟨S10000, .f32⟩
  | 60 => ⟨S320000x1, .i32⟩
  | 61 => ⟨S10000, .f32⟩
  | 62 => ⟨S_, .f32⟩
  | 63 => ⟨S_, .f32⟩
  | 64 => ⟨S10000, .f32⟩
  | 65 => ⟨S10000, .f32⟩
  | 66 => ⟨S_, .f32⟩
  | 67 => ⟨S10000, .f32⟩
  | 68 => ⟨S320000x1, .i32⟩
  | 69 => ⟨S10000, .f32⟩
  | 70 => ⟨S_, .f32⟩
  | 71 => ⟨S_, .f32⟩
  | 72 => ⟨S10000, .f32⟩
  | 73 => ⟨S10000, .f32⟩
  | 74 => ⟨S10000, .f32⟩
  | 75 => ⟨S10000x1, .f32⟩
  | 76 => ⟨S10000x256, .f32⟩
  | 77 => ⟨S10000x256, .f32⟩
  | 78 => ⟨S_, .i32⟩
  | 79 => ⟨S320000, .i32⟩
  | 80 => ⟨S320000, .i1⟩
  | 81 => ⟨S_, .i32⟩
  | 82 => ⟨S320000, .i32⟩
  | 83 => ⟨S320000, .i32⟩
  | 84 => ⟨S320000, .i32⟩
  | 85 => ⟨S320000x1, .i32⟩
  | 86 => ⟨S320000x256, .f32⟩
  | 87 => ⟨S_, .f32⟩
  | 88 => ⟨S10000x256, .f32⟩
  | 89 => ⟨S320000x1, .i32⟩
  | 90 => ⟨S10000x256, .f32⟩
  | 91 => ⟨S10000, .f32⟩
  | 92 => ⟨S10000x1, .f32⟩
  | 93 => ⟨S10000x256, .f32⟩
  | 94 => ⟨S10000x256, .f32⟩
  | 95 => ⟨S10000x128, .f32⟩
  | 96 => ⟨S1x128, .f32⟩
  | 97 => ⟨S10000x128, .f32⟩
  | 98 => ⟨S10000x128, .f32⟩
  | 99 => ⟨S_, .f32⟩
  | 100 => ⟨S320000, .f32⟩
  | 101 => ⟨S_, .f32⟩
  | 102 => ⟨S10000, .f32⟩
  | 103 => ⟨S320000x1, .i32⟩
  | 104 => ⟨S10000, .f32⟩
  | 105 => ⟨S_, .f32⟩
  | 106 => ⟨S_, .f32⟩
  | 107 => ⟨S10000, .f32⟩
  | 108 => ⟨S10000, .f32⟩
  | 109 => ⟨S_, .f32⟩
  | 110 => ⟨S10000, .f32⟩
  | 111 => ⟨S320000x1, .i32⟩
  | 112 => ⟨S10000, .f32⟩
  | 113 => ⟨S_, .f32⟩
  | 114 => ⟨S_, .f32⟩
  | 115 => ⟨S10000, .f32⟩
  | 116 => ⟨S10000, .f32⟩
  | 117 => ⟨S10000, .f32⟩
  | 118 => ⟨S10000x1, .f32⟩
  | 119 => ⟨S10000x256, .f32⟩
  | 120 => ⟨S10000x256, .f32⟩
  | 121 => ⟨S_, .i32⟩
  | 122 => ⟨S320000, .i32⟩
  | 123 => ⟨S320000, .i1⟩
  | 124 => ⟨S_, .i32⟩
  | 125 => ⟨S320000, .i32⟩
  | 126 => ⟨S320000, .i32⟩
  | 127 => ⟨S320000, .i32⟩
  | _ => ⟨S10000x512, .f32⟩

abbrev hbmTy0_1 (i : Nat) : BufTy := match i % 128 with
  | 0 => ⟨S320000x1, .i32⟩
  | 1 => ⟨S320000x256, .f32⟩
  | 2 => ⟨S_, .f32⟩
  | 3 => ⟨S10000x256, .f32⟩
  | 4 => ⟨S320000x1, .i32⟩
  | 5 => ⟨S10000x256, .f32⟩
  | 6 => ⟨S10000, .f32⟩
  | 7 => ⟨S10000x1, .f32⟩
  | 8 => ⟨S10000x256, .f32⟩
  | 9 => ⟨S10000x256, .f32⟩
  | 10 => ⟨S10000x128, .f32⟩
  | 11 => ⟨S1x128, .f32⟩
  | 12 => ⟨S10000x128, .f32⟩
  | 13 => ⟨S10000x128, .f32⟩
  | 14 => ⟨S10000x128, .f32⟩
  | 15 => ⟨S10000x128, .f32⟩
  | 16 => ⟨S10000x128, .f32⟩
  | 17 => ⟨S128x10000, .f32⟩
  | 18 => ⟨S10000x10000, .f32⟩
  | 19 => ⟨S10000x10000, .f32⟩
  | 20 => ⟨S10000x10000, .f32⟩
  | 21 => ⟨S_, .f32⟩
  | 22 => ⟨S10000x10000, .f32⟩
  | 23 => ⟨S10000x10000, .f32⟩
  | 24 => ⟨S_, .f32⟩
  | 25 => ⟨S10000x10000, .f32⟩
  | 26 => ⟨S10000x10000, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call2_cst : Ref sig .tc := ⟨.hbm, 53, rfl⟩
abbrev main_call2_v0 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_8 : Ref sig .tc := ⟨.hbm, 62, rfl⟩
abbrev main_call3_v0 : Ref sig .tc := ⟨.hbm, 63, rfl⟩
abbrev main_call3_v1 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_10 : Ref sig .tc := ⟨.hbm, 70, rfl⟩
abbrev main_call4_v0 : Ref sig .tc := ⟨.hbm, 71, rfl⟩
abbrev main_call4_v1 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_11 : Ref sig .tc := ⟨.hbm, 78, rfl⟩
abbrev main_v45 : Ref sig .tc := ⟨.hbm, 79, rfl⟩
abbrev main_v46 : Ref sig .tc := ⟨.hbm, 80, rfl⟩
abbrev main_c_12 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_13 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_14 : Ref sig .tc := ⟨.hbm, 99, rfl⟩
abbrev main_v63 : Ref sig .tc := ⟨.hbm, 100, rfl⟩
abbrev main_cst_15 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_16 : Ref sig .tc := ⟨.hbm, 105, rfl⟩
abbrev main_call5_v0 : Ref sig .tc := ⟨.hbm, 106, rfl⟩
abbrev main_call5_v1 : Ref sig .tc := ⟨.hbm, 107, rfl⟩
abbrev main_v67 : Ref sig .tc := ⟨.hbm, 108, rfl⟩
abbrev main_cst_17 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_18 : Ref sig .tc := ⟨.hbm, 113, rfl⟩
abbrev main_call6_v0 : Ref sig .tc := ⟨.hbm, 114, rfl⟩
abbrev main_call6_v1 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_c_19 : Ref sig .tc := ⟨.hbm, 121, rfl⟩
abbrev main_v76 : Ref sig .tc := ⟨.hbm, 122, rfl⟩
abbrev main_v77 : Ref sig .tc := ⟨.hbm, 123, rfl⟩
abbrev main_c_20 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_21 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_22 : Ref sig .tc := ⟨.hbm, 149, rfl⟩
abbrev main_v101 : Ref sig .tc := ⟨.hbm, 150, rfl⟩
abbrev main_v102 : Ref sig .tc := ⟨.hbm, 151, rfl⟩
abbrev main_cst_23 : Ref sig .tc := ⟨.hbm, 152, rfl⟩
abbrev main_v103 : Ref sig .tc := ⟨.hbm, 153, rfl⟩
abbrev main_v104 : Ref sig .tc := ⟨.hbm, 154, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S_S10000x512 : S_.BroadcastsInDim S10000x512 (![] : Fin 0 → Fin S10000x512.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S10000x128_S128x10000_1_0 : S10000x128.Transposes [1, 0] S128x10000
  bcast_S_S10000x10000 : S_.BroadcastsInDim S10000x10000 (![] : Fin 0 → Fin S10000x10000.rank)
  scatter_S10000_S320000x1_S320000_n_0_0_1_wf : ScatterDims.WF S10000 S320000x1 S320000 [] [0] [0] 1
  gather_S10000x512_S320000x1_S320000x512_1_0_n_n_0_1_1512_wf : GatherDims.WF S10000x512 S320000x1 S320000x512 [1] [0] [] [0] [] 1 ![1, 512]
  scatter_S10000x512_S320000x1_S320000x512_1_0_0_1_wf : ScatterDims.WF S10000x512 S320000x1 S320000x512 [1] [0] [0] 1
  dot_S10000x512_S512x256_S10000x256_1_0_0_1_n_n_wf : DotDims.WF S10000x512 S512x256 S10000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x128_S10000x128_1_0_0_1_n_n_wf : DotDims.WF S10000x256 S256x128 S10000x128 [1] [0] [0] [1] [] []
  dot_S10000x128_S128x10000_S10000x10000_1_0_0_1_n_n_wf : DotDims.WF S10000x128 S128x10000 S10000x10000 [1] [0] [0] [1] [] []

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000x512_S320000x1_S320000x512_1_0_n_n_0_1_1512 : GatherDims S10000x512 S320000x1 S320000x512 where
  offsetDims := [1]
  collapsedSliceDims := [0]
  operandBatchingDims := []
  startIndicesBatchingDims := []
  startIndexMap := [0]
  indexVectorDim := 1
  sliceSizes := ![1, 512]
  wf := gather_S10000x512_S320000x1_S320000x512_1_0_n_n_0_1_1512_wf
def scatter_S10000x512_S320000x1_S320000x512_1_0_0_1 : ScatterDims S10000x512 S320000x1 S320000x512 where
  updateWindowDims := [1]
  insertedWindowDims := [0]
  scatterDimsToOperandDims := [0]
  indexVectorDim := 1
  wf := scatter_S10000x512_S320000x1_S320000x512_1_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x10000_S10000x10000_1_0_0_1_n_n : DotDims S10000x128 S128x10000 S10000x10000 where
  lhsContracting := [1]
  rhsContracting := [0]
  lhsNonContracting := [0]
  rhsNonContracting := [1]
  lhsBatch := []
  rhsBatch := []
  wf := dot_S10000x128_S128x10000_S10000x10000_1_0_0_1_n_n_wf

class Facts : Prop extends Facts₀ where

variable [Facts]
-- ==== Proof.KRun.lean ====
/-
  The kernel program's run with the result buffer kept.

  Every weakly fair execution of the program from a memory with zero counters terminates without a fault, and in every final
  state each buffer that outlives the call holds what the fold through the program's stretches of host operations and its four
  pipelined regions leaves in it. The frame claim keeps of this only the argument buffers; the value claim also needs the result
  buffer, so the run is stated here once more with the result buffer's final contents named: the last fold stage at that buffer.
-/
import proofs.«147585_j10024453669132_2_alg».proof.Proof.Gen.KernelIdeal.Frame

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last fold stage's contents, and the ten argument buffers end as launched. -/
theorem run_main : θ_run defs (onTc (τ := τ) (main (F := F))) ⟨m, fun _ => 0, ρ⟩ (fun r => ∀ c : Dev nD,
      r.2.mem ((c.tc : Thread nD τ).loc main_v39) = W12 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v39 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.Layers

end
-- ==== Proof.KPayloads.lean ====
/-
  The four kernel bodies' arithmetic, read at an index on the extended reals.

  Each body stores one value computed from the blocks it loads. At the exact instance a change of float format is the
  identity and a matrix product into a zero accumulator is the plain sum of products over the contracted axis, so each stored
  entry is an explicit expression in entries of the loaded blocks:
    * projection: entry (p, q) is (the sum over k of x(p, k) · w(k, q)) · s(p, 0);
    * affine, rectify, rescale: entry (p, q) is max(a(p, q) · d(p, 0) + b(q), 0) · s(p, 0);
    * second projection with reparameterisation: entry (p, q), q < 128, is
      (sum over k of a(p, k) · d(p, 0) · w(k, q) + b(q)) + n(p, q) · exp(sum over k of a(p, k) · d(p, 0) · w(k, 128 + q) + b(128 + q));
    * decoder: entry (p, q) is the logistic function of the sum over k of z(p, k) · y(q, k).
-/
import proofs.«147585_j10024453669132_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Layers

open Cert.KernelIdeal Cert.KernelIdeal.Gen Idealize.ShloMosaic Idealize.ShloMosaic.ValueIdx
open scoped BigOperators

/-! ## The three matrix products into a zero accumulator, as sums over the contracted coordinate -/

/-- Rows times columns, 512 contracted: entry (p, q) of the product is the sum over k of l(p, k) · r(k, q). -/
theorem matmul0_apply {φ₁ φ₂ : FTy} (l : FVec Ideal S1000x512 φ₁) (r : FVec Ideal S512x256 φ₂) (p : Fin 1000) (q : Fin 256) :
    FloatOps.matmul dot_S1000x512_S512x256_S1000x256_1_0_0_1_n_n none l r (constant S1000x256 .f32 0x00000000#32) (ix2 p q)
      = ∑ k : Fin 512, l (ix2 p k) * r (ix2 k q) := by
  rw [Ideal.matmul_constant_zero_apply, ← Equiv.sum_comp (contrEquiv1 dot_S1000x512_S512x256_S1000x256_1_0_0_1_n_n 512 rfl rfl).symm]
  refine Finset.sum_congr rfl fun k _ => ?_
  have hk := contrEquiv1_symm_val dot_S1000x512_S512x256_S1000x256_1_0_0_1_n_n 512 rfl rfl k
  have el : dot_S1000x512_S512x256_S1000x256_1_0_0_1_n_n.lhsIdx (ix2 p q) ((contrEquiv1 dot_S1000x512_S512x256_S1000x256_1_0_0_1_n_n 512 rfl rfl).symm k) = ix2 p k :=
    funext fun a => Fin.ext (by
      match a with
      | ⟨0, _⟩ =>
        show (dot_S1000x512_S512x256_S1000x256_1_0_0_1_n_n.lhsIdx (ix2 p q) _ 0).val = p.val
        unfold DotDims.lhsIdx
        rw [dif_neg (show ¬(0 : Fin S1000x512.rank) ∈ dot_S1000x512_S512x256_S1000x256_1_0_0_1_n_n.lhsBatch by decide),
          dif_pos (show (0 : Fin S1000x512.rank) ∈ dot_S1000x512_S512x256_S1000x256_1_0_0_1_n_n.lhsNonContracting by decide)]
        rfl
      | ⟨1, _⟩ => exact (dot_S1000x512_S512x256_S1000x256_1_0_0_1_n_n.lhsIdx_val_of_single rfl _ _).trans hk)
  have er : dot_S1000x512_S512x256_S1000x256_1_0_0_1_n_n.rhsIdx (ix2 p q) ((contrEquiv1 dot_S1000x512_S512x256_S1000x256_1_0_0_1_n_n 512 rfl rfl).symm k) = ix2 k q :=
    funext fun a => Fin.ext (by
      match a with
      | ⟨0, _⟩ => exact (dot_S1000x512_S512x256_S1000x256_1_0_0_1_n_n.rhsIdx_val_of_single rfl _ _).trans hk
      | ⟨1, _⟩ =>
        show (dot_S1000x512_S512x256_S1000x256_1_0_0_1_n_n.rhsIdx (ix2 p q) _ 1).val = q.val
        unfold DotDims.rhsIdx
        rw [dif_neg (show ¬(1 : Fin S512x256.rank) ∈ dot_S1000x512_S512x256_S1000x256_1_0_0_1_n_n.rhsBatch by decide),
          dif_pos (show (1 : Fin S512x256.rank) ∈ dot_S1000x512_S512x256_S1000x256_1_0_0_1_n_n.rhsNonContracting by decide)]
        rfl)
  rw [el, er]

/-- Rows times columns, 256 contracted: entry (p, q) of the product is the sum over k of l(p, k) · r(k, q). -/
theorem matmul2_apply {φ₁ φ₂ : FTy} (l : FVec Ideal S1000x256 φ₁) (r : FVec Ideal S256x256 φ₂) (p : Fin 1000) (q : Fin 256) :
    FloatOps.matmul dot_S1000x256_S256x256_S1000x256_1_0_0_1_n_n none l r (constant S1000x256 .f32 0x00000000#32) (ix2 p q)
      = ∑ k : Fin 256, l (ix2 p k) * r (ix2 k q) := by
  rw [Ideal.matmul_constant_zero_apply, ← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 p q) ((contrEquiv1 dot_S1000x256_S256x256_S1000x256_1_0_0_1_n_n 256 rfl rfl).symm k) = ix2 p k :=
    funext fun a => Fin.ext (by
      match a with
      | ⟨0, _⟩ =>
        show (dot_S1000x256_S256x256_S1000x256_1_0_0_1_n_n.lhsIdx (ix2 p q) _ 0).val = p.val
        unfold DotDims.lhsIdx
        rw [dif_neg (show ¬(0 : Fin S1000x256.rank) ∈ dot_S1000x256_S256x256_S1000x256_1_0_0_1_n_n.lhsBatch by decide),
          dif_pos (show (0 : Fin S1000x256.rank) ∈ dot_S1000x256_S256x256_S1000x256_1_0_0_1_n_n.lhsNonContracting by decide)]
        rfl
      | ⟨1, _⟩ => exact (dot_S1000x256_S256x256_S1000x256_1_0_0_1_n_n.lhsIdx_val_of_single rfl _ _).trans hk)
  have er : dot_S1000x256_S256x256_S1000x256_1_0_0_1_n_n.rhsIdx (ix2 p q) ((contrEquiv1 dot_S1000x256_S256x256_S1000x256_1_0_0_1_n_n 256 rfl rfl).symm k) = ix2 k q :=
    funext fun a => Fin.ext (by
      match a with
      | ⟨0, _⟩ => exact (dot_S1000x256_S256x256_S1000x256_1_0_0_1_n_n.rhsIdx_val_of_single rfl _ _).trans hk
      | ⟨1, _⟩ =>
        show (dot_S1000x256_S256x256_S1000x256_1_0_0_1_n_n.rhsIdx (ix2 p q) _ 1).val = q.val
        unfold DotDims.rhsIdx
        rw [dif_neg (show ¬(1 : Fin S256x256.rank) ∈ dot_S1000x256_S256x256_S1000x256_1_0_0_1_n_n.rhsBatch by decide),
          dif_pos (show (1 : Fin S256x256.rank) ∈ dot_S1000x256_S256x256_S1000x256_1_0_0_1_n_n.rhsNonContracting by decide)]
        rfl)
  rw [el, er]

/-- Rows times rows, 128 contracted on both second axes: entry (p, q) is the sum over k of l(p, k) · r(q, k). -/
theorem matmul3_apply {φ₁ φ₂ : FTy} (l : FVec Ideal S200x128 φ₁) (r : FVec Ideal S10000x128 φ₂) (p : Fin 200) (q : Fin 10000) :
    FloatOps.matmul dot_S200x128_S10000x128_S200x10000_1_1_0_0_n_n none l r (constant S200x10000 .f32 0x00000000#32) (ix2 p q)
      = ∑ k : Fin 128, l (ix2 p k) * r (ix2 q k) := by
  rw [Ideal.matmul_constant_zero_apply, ← Equiv.sum_comp (contrEquiv1 dot_S200x128_S10000x128_S200x10000_1_1_0_0_n_n 128 rfl rfl).symm]
  refine Finset.sum_congr rfl fun k _ => ?_
  have hk := contrEquiv1_symm_val dot_S200x128_S10000x128_S200x10000_1_1_0_0_n_n 128 rfl rfl k
  have el : dot_S200x128_S10000x128_S200x10000_1_1_0_0_n_n.lhsIdx (ix2 p q) ((contrEquiv1 dot_S200x128_S10000x128_S200x10000_1_1_0_0_n_n 128 rfl rfl).symm k) = ix2 p k :=
    funext fun a => Fin.ext (by
      match a with
      | ⟨0, _⟩ =>
        show (dot_S200x128_S10000x128_S200x10000_1_1_0_0_n_n.lhsIdx (ix2 p q) _ 0).val = p.val
        unfold DotDims.lhsIdx
        rw [dif_neg (show ¬(0 : Fin S200x128.rank) ∈ dot_S200x128_S10000x128_S200x10000_1_1_0_0_n_n.lhsBatch by decide),
          dif_pos (show (0 : Fin S200x128.rank) ∈ dot_S200x128_S10000x128_S200x10000_1_1_0_0_n_n.lhsNonContracting by decide)]
        rfl
      | ⟨1, _⟩ => exact (dot_S200x128_S10000x128_S200x10000_1_1_0_0_n_n.lhsIdx_val_of_single rfl _ _).trans hk)
  have er : dot_S200x128_S10000x128_S200x10000_1_1_0_0_n_n.rhsIdx (ix2 p q) ((contrEquiv1 dot_S200x128_S10000x128_S200x10000_1_1_0_0_n_n 128 rfl rfl).symm k) = ix2 q k :=
    funext fun a => Fin.ext (by
      match a with
      | ⟨0, _⟩ =>
        show (dot_S200x128_S10000x128_S200x10000_1_1_0_0_n_n.rhsIdx (ix2 p q) _ 0).val = q.val
        unfold DotDims.rhsIdx
        rw [dif_neg (show ¬(0 : Fin S10000x128.rank) ∈ dot_S200x128_S10000x128_S200x10000_1_1_0_0_n_n.rhsBatch by decide),
          dif_pos (show (0 : Fin S10000x128.rank) ∈ dot_S200x128_S10000x128_S200x10000_1_1_0_0_n_n.rhsNonContracting by decide)]
        rfl
      | ⟨1, _⟩ => exact (dot_S200x128_S10000x128_S200x10000_1_1_0_0_n_n.rhsIdx_val_of_single rfl _ _).trans hk)
  rw [el, er]

/-! ## Layout -/

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of an array, at an index, is the exponential of the entry. -/
theorem exp_apply {s : Shape} {φ : FTy} (a : FVec Ideal s φ) (i : s.Idx) : exp a i = Ideal.exp (a i) := rfl
/-- The logistic function of an array, at an index, is the logistic function of the entry. -/
theorem logistic_apply {s : Shape} {φ : FTy} (a : FVec Ideal s φ) (i : s.Idx) : logistic a i = Ideal.logistic (a i) := rfl

/-- Column `q` of the left half of a 256-wide row. -/
abbrev lo (q : Fin 128) : Fin 256 := ⟨q.val, by omega⟩
/-- Column `q` of the right half of a 256-wide row. -/
abbrev hi (q : Fin 128) : Fin 256 := ⟨128 + q.val, by omega⟩

/-! ## The payloads -/

/-- The projection body: the row of `x0` times the column of `x1`, scaled by the row's factor. -/
theorem pay0_apply (x0 : Vec Ideal S1000x512 .f32) (x1 : Vec Ideal S512x256 .f32) (x2 : Vec Ideal S1000x1 .f32)
    (p : Fin 1000) (q : Fin 256) :
    k0_pay1 (F := Ideal) x0 x1 x2 (ix2 p q) = (∑ k : Fin 512, x0 (ix2 p k) * x1 (ix2 k q)) * x2 (ix2 p (0 : Fin 1)) := by
  unfold k0_pay1
  simp only [matmul, mulf_apply, shapeCast_self, broadcastTo_a1_ab_apply, matmul0_apply, truncf_apply]

/-- The affine-rectify-rescale body. -/
theorem pay1_apply (v0 : Vec Ideal S1000x256 .f32) (v2 : Vec Ideal S1000x1 .f32) (v6 : Vec Ideal S256 .f32) (v12 : Vec Ideal S1000x1 .f32)
    (p : Fin 1000) (q : Fin 256) :
    k1_pay1 (F := Ideal) v0 v2 v6 v12 (ix2 p q)
      = max (v0 (ix2 p q) * v2 (ix2 p (0 : Fin 1)) + v6 (ix1 q)) (Ideal.ofBits .f32 0x00000000#32) * v12 (ix2 p (0 : Fin 1)) := by
  unfold k1_pay1
  simp only [mulf_apply, addf_apply, maximumf_apply, broadcast_apply, shapeCast_self, broadcastTo_a1_ab_apply,
    broadcastTo_1b_ab_apply, shapeCast_a_1a_apply]
  rfl

/-- The second projection with the reparameterisation: the left half of the affine row plus the noise times the exponential of
    the right half. -/
theorem pay2_apply (v0 : Vec Ideal S1000x256 .f32) (v2 : Vec Ideal S1000x1 .f32) (v7 : Vec Ideal S256x256 .f32) (v11 : Vec Ideal S256 .f32)
    (v18 : Vec Ideal S1000x128 .f32) (p : Fin 1000) (q : Fin 128) :
    k2_pay1 (F := Ideal) v0 v2 v7 v11 v18 (ix2 p q)
      = ((∑ k : Fin 256, (v0 (ix2 p k) * v2 (ix2 p (0 : Fin 1))) * v7 (ix2 k (lo q))) + v11 (ix1 (lo q)))
        + v18 (ix2 p q) * Ideal.exp ((∑ k : Fin 256, (v0 (ix2 p k) * v2 (ix2 p (0 : Fin 1))) * v7 (ix2 k (hi q))) + v11 (ix1 (hi q))) := by
  unfold k2_pay1
  simp only [matmul, addf_apply, mulf_apply, exp_apply]
  rw [slice2_axis1_apply 0 _ _ p q (lo q) (by simp), slice2_axis1_apply 128 _ _ p q (hi q) (by simp)]
  simp only [addf_apply, mulf_apply, shapeCast_self, broadcastTo_a1_ab_apply, broadcastTo_1b_ab_apply, shapeCast_a_1a_apply,
    matmul2_apply, truncf_apply]

/-- The decoder body: the logistic function of the inner product of two rows. -/
theorem pay3_apply (v0 : Vec Ideal S200x128 .f32) (v3 : Vec Ideal S10000x128 .bf16) (p : Fin 200) (q : Fin 10000) :
    k3_pay1 (F := Ideal) v0 v3 (ix2 p q) = Ideal.logistic (∑ k : Fin 128, v0 (ix2 p k) * v3 (ix2 q k)) := by
  unfold k3_pay1
  simp only [matmul, logistic_apply, matmul3_apply, shapeCast_self, truncf_apply]

end Cert.KernelIdeal.Layers

end
-- ==== Proof.KRegion0.lean ====
/-
  What the first region leaves in its output array: every source row projected and scaled.

  The region walks ten points; point t loads rows [1000 t, 1000 t + 1000) of the feature array, the whole weight matrix and the
  same rows of the scale column, and writes back the same rows of the output. A written entry depends only on its own row of
  the features, its own column of the weights and its own row's scale, so block t of the output is block t of ONE whole-array
  function: entry (r, q) is (the sum over k of x(r, k) · w(k, q)) · s(r, 0). The ten blocks tile the array, so after the region
  the array is that function.
-/
import proofs.«147585_j10024453669132_2_alg».proof.Proof.Gen.KernelIdeal.Frame
import proofs.«147585_j10024453669132_2_alg».proof.Proof.KPayloads

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

/-- Every source row projected through the weights and scaled by its row factor. -/
def projScale (X : S10000x512.Idx → EReal) (W : S512x256.Idx → EReal) (s : S10000x1.Idx → EReal) : S10000x256.Idx → EReal :=
  fun i => (∑ k : Fin 512, X (ix2 (i 0) k) * W (ix2 k (i 1))) * s (ix2 (i 0) (0 : Fin 1))

/-- The index maps over the grid: the row windows move together, one block of rows per point; the weight window stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The payload's expression over the blocks at point `t` is the whole-array function at the output block's array index: each input
    block's coordinate is its block index times the block extent plus the coordinate inside the block. -/
theorem blockRead0 (X : S10000x512.Idx → EReal) (W : S512x256.Idx → EReal) (s : S10000x1.Idx → EReal) (t : Fin cfg0.N)
    (p : Fin 1000) (q : Fin 256) :
    (∑ k : Fin 512, X (((cfg0.win 0).blk t).view.emb (ix2 p k)) * W (((cfg0.win 1).blk t).view.emb (ix2 k q)))
        * s (((cfg0.win 2).blk t).view.emb (ix2 p (0 : Fin 1)))
      = projScale X W s (((cfg0.win 3).blk t).view.emb (ix2 p q)) := by
  obtain ⟨e00, e01, e10, e11, e20, e21, e30, e31⟩ := idx_facts0 t
  have hp : p.val < 1000 := p.isLt
  have hq : q.val < 256 := q.isLt
  have h0 : ∀ k : Fin 512, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 1000 + 1 * p.val = win0_3.index t (0 : Fin 2) * 1000 + 1 * p.val; omega
    | ⟨1, _⟩ => show win0_0.index t (1 : Fin 2) * 512 + 1 * k.val = k.val; omega
  have h1 : ∀ k : Fin 512, ((cfg0.win 1).blk t).view.emb (ix2 k q) = ix2 k ((((cfg0.win 3).blk t).view.emb (ix2 p q)) 1) := fun k => by
    funext a; apply Fin.ext
    match a with
    | ⟨0, _⟩ => show win0_1.index t (0 : Fin 2) * 512 + 1 * k.val = k.val; omega
    | ⟨1, _⟩ => show win0_1.index t (1 : Fin 2) * 256 + 1 * q.val = win0_3.index t (1 : Fin 2) * 256 + 1 * q.val; omega
  have h2 : ((cfg0.win 2).blk t).view.emb (ix2 p (0 : Fin 1)) = ix2 ((((cfg0.win 3).blk t).view.emb (ix2 p q)) 0) (0 : Fin 1) := by
    funext a; apply Fin.ext
    match a with
    | ⟨0, _⟩ => show win0_2.index t (0 : Fin 2) * 1000 + 1 * p.val = win0_3.index t (0 : Fin 2) * 1000 + 1 * p.val; omega
    | ⟨1, _⟩ => show win0_2.index t (1 : Fin 2) * 1 + 1 * 0 = 0; omega
  unfold projScale
  rw [h2]
  exact congrArg (· * _) (Finset.sum_congr rfl fun k _ => by rw [h0 k, h1 k] <;> rfl)

/-- What point `t` writes back is block `t` of the projected-and-scaled array of the arrays the region finds. -/
theorem flushed0 (c : Dev nD) (t : Fin cfg0.N) :
    (dat0 V c).flushed 3 t
      = ((cfg0.win 3).blk t).view.read (Elt Ideal) (projScale (V c main_arg0) (V c main_arg4) (V c main_v10)) := by
  show (cfg0.win 3).cut (grid0.coords t) ((dat0 V c).after 3 t) = _
  rw [after0_3]
  unfold out0_3
  rw [View.canon_unit_zero hz2]
  simp only [View.ld_unit_zero (S := S1000x512) hz2, View.ld_unit_zero (S := S512x256) hz2, View.ld_unit_zero (S := S1000x1) hz2]
  funext j
  obtain ⟨p, q, rfl⟩ : ∃ (p : Fin 1000) (q : Fin 256), j = ix2 p q := ⟨j 0, j 1, eq_ix2 j⟩
  refine (pay0_apply _ _ _ p q).trans ?_
  exact blockRead0 (V c main_arg0) (V c main_arg4) (V c main_v10) t p q

/-- An index of the output array is in point `t`'s block iff each coordinate is in the block's range on its axis. -/
theorem mem_blk0 (t : Fin cfg0.N) (i : S10000x256.Idx) :
    i ∈ ((cfg0.win 3).blk t).view.set ↔ ∀ a : Fin 2, win0_3.index t a * S1000x256.size a ≤ (i a).val ∧ (i a).val < win0_3.index t a * S1000x256.size a + S1000x256.size a := by
  show i ∈ ((View.whole main_v13).slice (win0_3.rect t)).set ↔ _
  rw [View.set_slice_whole, Rect.mem_set_unit]
  exact Iff.rfl

/-- Every block of rows is some point's. -/
theorem idx_onto0 : ∀ q0 : Fin 10, ∃ t : Fin cfg0.N, t.val = q0.val :=
  (by decide +kernel : ∀ q0 : Fin 10, ∃ t : Fin grid0.N, t.val = q0.val)

/-- The ten blocks tile the output array. -/
theorem cover0 (i : S10000x256.Idx) : ∃ t : Fin cfg0.N, (cfg0.win 3).flush t = true ∧ i ∈ ((cfg0.win 3).blk t).view.set := by
  have hi0 : (i 0).val < 10000 := (i 0).isLt
  have hi1 : (i 1).val < 256 := (i 1).isLt
  obtain ⟨t, ht⟩ := idx_onto0 ⟨(i 0).val / 1000, by omega⟩
  have ht' : t.val = (i 0).val / 1000 := ht
  obtain ⟨e00, e01, e10, e11, e20, e21, e30, e31⟩ := idx_facts0 t
  refine ⟨t, flush0_3 t, ?_⟩
  rw [mem_blk0]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 256 ≤ (i 1).val ∧ (i 1).val < win0_3.index t (1 : Fin 2) * 256 + 256; omega

/-- After the region its output array is the projected-and-scaled array of the arrays the region found. -/
theorem final0 (c : Dev nD) :
    (dat0 V c).arrAt 3 cfg0.N = projScale (V c main_arg0) (V c main_arg4) (V c main_v10) :=
  (dat0 V c).arrAt_eq_of_cover 3 _ (fun t _ => flushed0 V c t) cover0

end Cert.KernelIdeal.Layers

end
-- ==== Proof.KRegion1.lean ====
/-
  What the second region leaves in its output array: every row put through an affine map, rectified, and rescaled.

  The region walks ten points; point t loads rows [1000 t, 1000 t + 1000) of the aggregated array and the same rows of two
  one-column arrays (a normalising factor and a rescaling factor), the whole bias vector, and writes back the same rows of
  the output. A written entry depends only on its own entry of the aggregated array, its own row's two factors and its own
  column's bias, so block t of the output is block t of ONE whole-array function: entry (r, q) is
  max(a(r, q) · d(r, 0) + b(q), 0) · s(r, 0). The ten blocks tile the array, so after the region the array is that function.
-/
import proofs.«147585_j10024453669132_2_alg».proof.Proof.Gen.KernelIdeal.Frame
import proofs.«147585_j10024453669132_2_alg».proof.Proof.KPayloads

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz2_1 : (![0, 0] : Fin 2 → Nat) = fun _ => 0 := funext fun a => by fin_cases a <;> rfl
theorem hz1_1 : (![0] : Fin 1 → Nat) = fun _ => 0 := funext fun a => by fin_cases a; rfl

/-- Every entry scaled by its row's first factor, shifted by its column's bias, rectified at zero, and scaled by its row's
    second factor. -/
def affineReluScale (A : S10000x256.Idx → EReal) (d : S10000x1.Idx → EReal) (b : S256.Idx → EReal) (s : S10000x1.Idx → EReal) :
    S10000x256.Idx → EReal :=
  fun i => max (A (ix2 (i 0) (i 1)) * d (ix2 (i 0) (0 : Fin 1)) + b (ix1 (i 1))) (Ideal.ofBits .f32 0x00000000#32)
    * s (ix2 (i 0) (0 : Fin 1))

/-- The index maps over the grid: the four row windows move together, one block of rows per point; the bias window stays. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The body's expression over the blocks at point `t` is the whole-array function at the output block's array index: each
    input block's coordinate is its block index times the block extent plus the coordinate inside the block. -/
theorem blockRead1 (A : S10000x256.Idx → EReal) (d : S10000x1.Idx → EReal) (b : S256.Idx → EReal) (s : S10000x1.Idx → EReal)
    (t : Fin cfg1.N) (p : Fin 1000) (q : Fin 256) :
    max (A (((cfg1.win 0).blk t).view.emb (ix2 p q)) * d (((cfg1.win 1).blk t).view.emb (ix2 p (0 : Fin 1)))
          + b (((cfg1.win 2).blk t).view.emb (ix1 q))) (Ideal.ofBits .f32 0x00000000#32)
        * s (((cfg1.win 3).blk t).view.emb (ix2 p (0 : Fin 1)))
      = affineReluScale A d b s (((cfg1.win 4).blk t).view.emb (ix2 p q)) := by
  obtain ⟨e00, e01, e10, e11, e20, e30, e31, e40, e41⟩ := idx_facts1 t
  have hp : p.val < 1000 := p.isLt
  have hq : q.val < 256 := q.isLt
  have h0 : ((cfg1.win 0).blk t).view.emb (ix2 p q)
      = ix2 ((((cfg1.win 4).blk t).view.emb (ix2 p q)) 0) ((((cfg1.win 4).blk t).view.emb (ix2 p q)) 1) := by
    funext a; apply Fin.ext
    match a with
    | ⟨0, _⟩ => show win1_0.index t (0 : Fin 2) * 1000 + 1 * p.val = win1_4.index t (0 : Fin 2) * 1000 + 1 * p.val; omega
    | ⟨1, _⟩ => show win1_0.index t (1 : Fin 2) * 256 + 1 * q.val = win1_4.index t (1 : Fin 2) * 256 + 1 * q.val; omega
  have h1 : ((cfg1.win 1).blk t).view.emb (ix2 p (0 : Fin 1))
      = ix2 ((((cfg1.win 4).blk t).view.emb (ix2 p q)) 0) (0 : Fin 1) := by
    funext a; apply Fin.ext
    match a with
    | ⟨0, _⟩ => show win1_1.index t (0 : Fin 2) * 1000 + 1 * p.val = win1_4.index t (0 : Fin 2) * 1000 + 1 * p.val; omega
    | ⟨1, _⟩ => show win1_1.index t (1 : Fin 2) * 1 + 1 * 0 = 0; omega
  have h2 : ((cfg1.win 2).blk t).view.emb (ix1 q) = ix1 ((((cfg1.win 4).blk t).view.emb (ix2 p q)) 1) := by
    funext a; apply Fin.ext
    match a with
    | ⟨0, _⟩ => show win1_2.index t (0 : Fin 1) * 256 + 1 * q.val = win1_4.index t (1 : Fin 2) * 256 + 1 * q.val; omega
  have h3 : ((cfg1.win 3).blk t).view.emb (ix2 p (0 : Fin 1))
      = ix2 ((((cfg1.win 4).blk t).view.emb (ix2 p q)) 0) (0 : Fin 1) := by
    funext a; apply Fin.ext
    match a with
    | ⟨0, _⟩ => show win1_3.index t (0 : Fin 2) * 1000 + 1 * p.val = win1_4.index t (0 : Fin 2) * 1000 + 1 * p.val; omega
    | ⟨1, _⟩ => show win1_3.index t (1 : Fin 2) * 1 + 1 * 0 = 0; omega
  unfold affineReluScale
  rw [h0, h1, h2, h3]
  rfl

/-- What point `t` writes back is block `t` of the affine-rectified-rescaled array of the arrays the region finds. -/
theorem flushed1 (c : Dev nD) (t : Fin cfg1.N) :
    (dat1 V c).flushed 4 t
      = ((cfg1.win 4).blk t).view.read (Elt Ideal)
          (affineReluScale (V c main_v23) (V c main_v12) (V c main_arg5) (V c main_v10)) := by
  show (cfg1.win 4).cut (grid1.coords t) ((dat1 V c).after 4 t) = _
  rw [after1_4]
  unfold out1_4
  rw [View.canon_unit_zero hz2_1]
  simp only [View.ld_unit_zero (S := S1000x256) hz2_1, View.ld_unit_zero (S := S1000x1) hz2_1,
    View.ld_unit_zero (S := S256) hz1_1]
  funext j
  obtain ⟨p, q, rfl⟩ : ∃ (p : Fin 1000) (q : Fin 256), j = ix2 p q := ⟨j 0, j 1, eq_ix2 j⟩
  refine (pay1_apply _ _ _ _ p q).trans ?_
  exact blockRead1 (V c main_v23) (V c main_v12) (V c main_arg5) (V c main_v10) t p q

/-- An index of the output array is in point `t`'s block iff each coordinate is in the block's range on its axis. -/
theorem mem_blk1 (t : Fin cfg1.N) (i : S10000x256.Idx) :
    i ∈ ((cfg1.win 4).blk t).view.set ↔ ∀ a : Fin 2, win1_4.index t a * S1000x256.size a ≤ (i a).val
      ∧ (i a).val < win1_4.index t a * S1000x256.size a + S1000x256.size a := by
  show i ∈ ((View.whole main_v24).slice (win1_4.rect t)).set ↔ _
  rw [View.set_slice_whole, Rect.mem_set_unit]
  exact Iff.rfl

/-- Every block of rows is some point's. -/
theorem idx_onto1 : ∀ q0 : Fin 10, ∃ t : Fin cfg1.N, t.val = q0.val :=
  (by decide +kernel : ∀ q0 : Fin 10, ∃ t : Fin grid1.N, t.val = q0.val)

/-- The ten blocks tile the output array. -/
theorem cover1 (i : S10000x256.Idx) : ∃ t : Fin cfg1.N, (cfg1.win 4).flush t = true ∧ i ∈ ((cfg1.win 4).blk t).view.set := by
  have hi0 : (i 0).val < 10000 := (i 0).isLt
  have hi1 : (i 1).val < 256 := (i 1).isLt
  obtain ⟨t, ht⟩ := idx_onto1 ⟨(i 0).val / 1000, by omega⟩
  have ht' : t.val = (i 0).val / 1000 := ht
  obtain ⟨e00, e01, e10, e11, e20, e30, e31, e40, e41⟩ := idx_facts1 t
  refine ⟨t, flush1_4 t, ?_⟩
  rw [mem_blk1]
  intro a
  match a with
  | ⟨0, _⟩ => show win1_4.index t (0 : Fin 2) * 1000 ≤ (i 0).val ∧ (i 0).val < win1_4.index t (0 : Fin 2) * 1000 + 1000; omega
  | ⟨1, _⟩ => show win1_4.index t (1 : Fin 2) * 256 ≤ (i 1).val ∧ (i 1).val < win1_4.index t (1 : Fin 2) * 256 + 256; omega

/-- After the region its output array is the affine-rectified-rescaled array of the arrays the region found. -/
theorem final1 (c : Dev nD) :
    (dat1 V c).arrAt 4 cfg1.N = affineReluScale (V c main_v23) (V c main_v12) (V c main_arg5) (V c main_v10) :=
  (dat1 V c).arrAt_eq_of_cover 4 _ (fun t _ => flushed1 V c t) cover1

end Cert.KernelIdeal.Layers

end
-- ==== Proof.KRegion2.lean ====
/-
  What the third region leaves in its output array: every row projected a second time and reparameterised.

  The region walks ten points; point t loads rows [1000 t, 1000 t + 1000) of the aggregated array, of a one-column array of
  normalising factors and of the noise array, the whole 256 × 256 weight matrix and the whole bias vector, and writes back the
  same rows of the 128-wide output. A written entry depends only on its own row of the aggregated array, its own row's factor,
  two columns of the weights and two entries of the bias — its own column q in the left half and column 128 + q in the right
  half — and its own entry of the noise, so block t of the output is block t of ONE whole-array function: with
  m(r, j) = (the sum over k of a(r, k) · d(r, 0) · w(k, j)) + b(j), entry (r, q) is m(r, q) + n(r, q) · exp(m(r, 128 + q)).
  The ten blocks tile the array, so after the region the array is that function.
-/
import proofs.«147585_j10024453669132_2_alg».proof.Proof.Gen.KernelIdeal.Frame
import proofs.«147585_j10024453669132_2_alg».proof.Proof.KPayloads

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz2_2 : (![0, 0] : Fin 2 → Nat) = fun _ => 0 := funext fun a => by fin_cases a <;> rfl
theorem hz1_2 : (![0] : Fin 1 → Nat) = fun _ => 0 := funext fun a => by fin_cases a; rfl

/-- Every row scaled by its factor and put through the affine map; the left half of the result plus the noise times the
    exponential of the right half. -/
def encode (A : S10000x256.Idx → EReal) (W : S256x256.Idx → EReal) (b : S256.Idx → EReal) (d : S10000x1.Idx → EReal)
    (n : S10000x128.Idx → EReal) : S10000x128.Idx → EReal :=
  fun i => ((∑ k : Fin 256, (A (ix2 (i 0) k) * d (ix2 (i 0) (0 : Fin 1))) * W (ix2 k (lo (i 1)))) + b (ix1 (lo (i 1))))
    + n (ix2 (i 0) (i 1)) * Ideal.exp ((∑ k : Fin 256, (A (ix2 (i 0) k) * d (ix2 (i 0) (0 : Fin 1))) * W (ix2 k (hi (i 1)))) + b (ix1 (hi (i 1))))

/-- The index maps over the grid: the four row windows move together, one block of rows per point; the weight and bias windows
    stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The whole-array function at an index `i`, from any indices that have `i`'s coordinates: the row's entries and factor at row
    `i 0`, the weights' and bias's entries at columns `i 1` and `128 + i 1`, the noise at `i` itself. -/
theorem encode_of_coords (A : S10000x256.Idx → EReal) (W : S256x256.Idx → EReal) (b : S256.Idx → EReal) (d : S10000x1.Idx → EReal)
    (n : S10000x128.Idx → EReal) (i : S10000x128.Idx)
    (I0 : Fin 256 → S10000x256.Idx) (I3 : S10000x1.Idx) (Ilo Ihi : Fin 256 → S256x256.Idx) (Jlo Jhi : S256.Idx) (I4 : S10000x128.Idx)
    (h0 : ∀ k, I0 k = ix2 (i 0) k) (h3 : I3 = ix2 (i 0) (0 : Fin 1))
    (h1lo : ∀ k, Ilo k = ix2 k (lo (i 1))) (h1hi : ∀ k, Ihi k = ix2 k (hi (i 1)))
    (h2lo : Jlo = ix1 (lo (i 1))) (h2hi : Jhi = ix1 (hi (i 1))) (h4 : I4 = ix2 (i 0) (i 1)) :
    ((∑ k : Fin 256, (A (I0 k) * d I3) * W (Ilo k)) + b Jlo)
        + n I4 * Ideal.exp ((∑ k : Fin 256, (A (I0 k) * d I3) * W (Ihi k)) + b Jhi)
      = encode A W b d n i := by
  obtain rfl : I0 = fun k => ix2 (i 0) k := funext h0
  obtain rfl : Ilo = fun k => ix2 k (lo (i 1)) := funext h1lo
  obtain rfl : Ihi = fun k => ix2 k (hi (i 1)) := funext h1hi
  subst h3 h2lo h2hi h4
  rfl

/-- The body's expression over the blocks at point `t` is the whole-array function at the output block's array index: each
    input block's coordinate is its block index times the block extent plus the coordinate inside the block. -/
theorem blockRead2 (A : S10000x256.Idx → EReal) (W : S256x256.Idx → EReal) (b : S256.Idx → EReal) (d : S10000x1.Idx → EReal)
    (n : S10000x128.Idx → EReal) (t : Fin cfg2.N) (p : Fin 1000) (q : Fin 128) :
    ((∑ k : Fin 256, (A (((cfg2.win 0).blk t).view.emb (ix2 p k)) * d (((cfg2.win 3).blk t).view.emb (ix2 p (0 : Fin 1)))) * W (((cfg2.win 1).blk t).view.emb (ix2 k (lo q))))
        + b (((cfg2.win 2).blk t).view.emb (ix1 (lo q))))
      + n (((cfg2.win 4).blk t).view.emb (ix2 p q))
        * Ideal.exp ((∑ k : Fin 256, (A (((cfg2.win 0).blk t).view.emb (ix2 p k)) * d (((cfg2.win 3).blk t).view.emb (ix2 p (0 : Fin 1)))) * W (((cfg2.win 1).blk t).view.emb (ix2 k (hi q))))
          + b (((cfg2.win 2).blk t).view.emb (ix1 (hi q))))
      = encode A W b d n (((cfg2.win 5).blk t).view.emb (ix2 p q)) := by
  obtain ⟨e00, e01, e10, e11, e20, e30, e31, e40, e41, e50, e51⟩ := idx_facts2 t
  have hp : p.val < 1000 := p.isLt
  have hq : q.val < 128 := q.isLt
  refine encode_of_coords A W b d n (((cfg2.win 5).blk t).view.emb (ix2 p q))
    (fun k => ((cfg2.win 0).blk t).view.emb (ix2 p k)) (((cfg2.win 3).blk t).view.emb (ix2 p (0 : Fin 1)))
    (fun k => ((cfg2.win 1).blk t).view.emb (ix2 k (lo q))) (fun k => ((cfg2.win 1).blk t).view.emb (ix2 k (hi q)))
    (((cfg2.win 2).blk t).view.emb (ix1 (lo q))) (((cfg2.win 2).blk t).view.emb (ix1 (hi q))) (((cfg2.win 4).blk t).view.emb (ix2 p q)) ?_ ?_ ?_ ?_ ?_ ?_ ?_
  · intro k; funext a; apply Fin.ext
    match a with
    | ⟨0, _⟩ => show win2_0.index t (0 : Fin 2) * 1000 + 1 * p.val = win2_5.index t (0 : Fin 2) * 1000 + 1 * p.val; omega
    | ⟨1, _⟩ => show win2_0.index t (1 : Fin 2) * 256 + 1 * k.val = k.val; omega
  · funext a; apply Fin.ext
    match a with
    | ⟨0, _⟩ => show win2_3.index t (0 : Fin 2) * 1000 + 1 * p.val = win2_5.index t (0 : Fin 2) * 1000 + 1 * p.val; omega
    | ⟨1, _⟩ => show win2_3.index t (1 : Fin 2) * 1 + 1 * 0 = 0; omega
  · intro k; funext a; apply Fin.ext
    match a with
    | ⟨0, _⟩ => show win2_1.index t (0 : Fin 2) * 256 + 1 * k.val = k.val; omega
    | ⟨1, _⟩ => show win2_1.index t (1 : Fin 2) * 256 + 1 * q.val = win2_5.index t (1 : Fin 2) * 128 + 1 * q.val; omega
  · intro k; funext a; apply Fin.ext
    match a with
    | ⟨0, _⟩ => show win2_1.index t (0 : Fin 2) * 256 + 1 * k.val = k.val; omega
    | ⟨1, _⟩ => show win2_1.index t (1 : Fin 2) * 256 + 1 * (128 + q.val) = 128 + (win2_5.index t (1 : Fin 2) * 128 + 1 * q.val); omega
  · funext a; apply Fin.ext
    match a with
    | ⟨0, _⟩ => show win2_2.index t (0 : Fin 1) * 256 + 1 * q.val = win2_5.index t (1 : Fin 2) * 128 + 1 * q.val; omega
  · funext a; apply Fin.ext
    match a with
    | ⟨0, _⟩ => show win2_2.index t (0 : Fin 1) * 256 + 1 * (128 + q.val) = 128 + (win2_5.index t (1 : Fin 2) * 128 + 1 * q.val); omega
  · funext a; apply Fin.ext
    match a with
    | ⟨0, _⟩ => show win2_4.index t (0 : Fin 2) * 1000 + 1 * p.val = win2_5.index t (0 : Fin 2) * 1000 + 1 * p.val; omega
    | ⟨1, _⟩ => show win2_4.index t (1 : Fin 2) * 128 + 1 * q.val = win2_5.index t (1 : Fin 2) * 128 + 1 * q.val; omega

/-- What point `t` writes back is block `t` of the encoded array of the arrays the region finds. -/
theorem flushed2 (c : Dev nD) (t : Fin cfg2.N) :
    (dat2 V c).flushed 5 t
      = ((cfg2.win 5).blk t).view.read (Elt Ideal)
          (encode (V c main_v34) (V c main_v35) (V c main_v36) (V c main_v12) (V c main_arg3)) := by
  show (cfg2.win 5).cut (grid2.coords t) ((dat2 V c).after 5 t) = _
  rw [after2_5]
  unfold out2_5
  rw [View.canon_unit_zero hz2_2]
  simp only [View.ld_unit_zero (S := S1000x256) hz2_2, View.ld_unit_zero (S := S1000x1) hz2_2,
    View.ld_unit_zero (S := S256x256) hz2_2, View.ld_unit_zero (S := S256) hz1_2, View.ld_unit_zero (S := S1000x128) hz2_2]
  funext j
  obtain ⟨p, q, rfl⟩ : ∃ (p : Fin 1000) (q : Fin 128), j = ix2 p q := ⟨j 0, j 1, eq_ix2 j⟩
  refine (pay2_apply _ _ _ _ _ p q).trans ?_
  exact blockRead2 (V c main_v34) (V c main_v35) (V c main_v36) (V c main_v12) (V c main_arg3) t p q

/-- An index of the output array is in point `t`'s block iff each coordinate is in the block's range on its axis. -/
theorem mem_blk2 (t : Fin cfg2.N) (i : S10000x128.Idx) :
    i ∈ ((cfg2.win 5).blk t).view.set ↔ ∀ a : Fin 2, win2_5.index t a * S1000x128.size a ≤ (i a).val
      ∧ (i a).val < win2_5.index t a * S1000x128.size a + S1000x128.size a := by
  show i ∈ ((View.whole main_v37).slice (win2_5.rect t)).set ↔ _
  rw [View.set_slice_whole, Rect.mem_set_unit]
  exact Iff.rfl

/-- Every block of rows is some point's. -/
theorem idx_onto2 : ∀ q0 : Fin 10, ∃ t : Fin cfg2.N, t.val = q0.val :=
  (by decide +kernel : ∀ q0 : Fin 10, ∃ t : Fin grid2.N, t.val = q0.val)

/-- The ten blocks tile the output array. -/
theorem cover2 (i : S10000x128.Idx) : ∃ t : Fin cfg2.N, (cfg2.win 5).flush t = true ∧ i ∈ ((cfg2.win 5).blk t).view.set := by
  have hi0 : (i 0).val < 10000 := (i 0).isLt
  have hi1 : (i 1).val < 128 := (i 1).isLt
  obtain ⟨t, ht⟩ := idx_onto2 ⟨(i 0).val / 1000, by omega⟩
  have ht' : t.val = (i 0).val / 1000 := ht
  obtain ⟨e00, e01, e10, e11, e20, e30, e31, e40, e41, e50, e51⟩ := idx_facts2 t
  refine ⟨t, flush2_5 t, ?_⟩
  rw [mem_blk2]
  intro a
  match a with
  | ⟨0, _⟩ => show win2_5.index t (0 : Fin 2) * 1000 ≤ (i 0).val ∧ (i 0).val < win2_5.index t (0 : Fin 2) * 1000 + 1000; omega
  | ⟨1, _⟩ => show win2_5.index t (1 : Fin 2) * 128 ≤ (i 1).val ∧ (i 1).val < win2_5.index t (1 : Fin 2) * 128 + 128; omega

/-- After the region its output array is the encoded array of the arrays the region found. -/
theorem final2 (c : Dev nD) :
    (dat2 V c).arrAt 5 cfg2.N
      = encode (V c main_v34) (V c main_v35) (V c main_v36) (V c main_v12) (V c main_arg3) :=
  (dat2 V c).arrAt_eq_of_cover 5 _ (fun t _ => flushed2 V c t) cover2

end Cert.KernelIdeal.Layers

end
-- ==== Proof.KRegion3.lean ====
/-
  What the last region leaves in its output array: the logistic function of every pair of rows' inner product.

  The region walks fifty points; point t loads rows [200 t, 200 t + 200) of the code array and the whole of a second copy of
  it, and writes back the same rows of the square output. A written entry depends only on its own row of the first array and,
  for its column, on that row of the second, so block t of the output is block t of ONE whole-array function: entry (r, q) is
  the logistic function of the sum over k of z(r, k) · y(q, k). The fifty blocks tile the array, so after the region the
  array is that function.
-/
import proofs.«147585_j10024453669132_2_alg».proof.Proof.Gen.KernelIdeal.Frame
import proofs.«147585_j10024453669132_2_alg».proof.Proof.KPayloads

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz2_3 : (![0, 0] : Fin 2 → Nat) = fun _ => 0 := funext fun a => by fin_cases a <;> rfl

/-- The logistic function of the inner product of row `r` of the first array with row `q` of the second. -/
def decode (Z : S10000x128.Idx → EReal) (Y : S10000x128.Idx → EReal) : S10000x10000.Idx → EReal :=
  fun i => Ideal.logistic (∑ k : Fin 128, Z (ix2 (i 0) k) * Y (ix2 (i 1) k))

/-- The index maps over the grid: the row windows move together, one block of rows per point; the second array's window stays. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's expression over the blocks at point `t` is the whole-array function at the output block's array index: each
    input block's coordinate is its block index times the block extent plus the coordinate inside the block. -/
theorem blockRead3 (Z : S10000x128.Idx → EReal) (Y : S10000x128.Idx → EReal) (t : Fin cfg3.N) (p : Fin 200) (q : Fin 10000) :
    Ideal.logistic (∑ k : Fin 128, Z (((cfg3.win 0).blk t).view.emb (ix2 p k)) * Y (((cfg3.win 1).blk t).view.emb (ix2 q k)))
      = decode Z Y (((cfg3.win 2).blk t).view.emb (ix2 p q)) := by
  obtain ⟨e00, e01, e10, e11, e20, e21⟩ := idx_facts3 t
  have hp : p.val < 200 := p.isLt
  have hq : q.val < 10000 := q.isLt
  have h0 : ∀ k : Fin 128, ((cfg3.win 0).blk t).view.emb (ix2 p k)
      = ix2 ((((cfg3.win 2).blk t).view.emb (ix2 p q)) 0) k := fun k => by
    funext a; apply Fin.ext
    match a with
    | ⟨0, _⟩ => show win3_0.index t (0 : Fin 2) * 200 + 1 * p.val = win3_2.index t (0 : Fin 2) * 200 + 1 * p.val; omega
    | ⟨1, _⟩ => show win3_0.index t (1 : Fin 2) * 128 + 1 * k.val = k.val; omega
  have h1 : ∀ k : Fin 128, ((cfg3.win 1).blk t).view.emb (ix2 q k)
      = ix2 ((((cfg3.win 2).blk t).view.emb (ix2 p q)) 1) k := fun k => by
    funext a; apply Fin.ext
    match a with
    | ⟨0, _⟩ => show win3_1.index t (0 : Fin 2) * 10000 + 1 * q.val = win3_2.index t (1 : Fin 2) * 10000 + 1 * q.val; omega
    | ⟨1, _⟩ => show win3_1.index t (1 : Fin 2) * 128 + 1 * k.val = k.val; omega
  unfold decode
  exact congrArg Ideal.logistic (Finset.sum_congr rfl fun k _ => by rw [h0 k, h1 k] <;> rfl)

/-- What point `t` writes back is block `t` of the decoded array of the arrays the region finds. -/
theorem flushed3 (c : Dev nD) (t : Fin cfg3.N) :
    (dat3 V c).flushed 2 t
      = ((cfg3.win 2).blk t).view.read (Elt Ideal) (decode (V c main_v37) (V c main_v38)) := by
  show (cfg3.win 2).cut (grid3.coords t) ((dat3 V c).after 2 t) = _
  rw [after3_2]
  unfold out3_2
  rw [View.canon_unit_zero hz2_3]
  simp only [View.ld_unit_zero (S := S200x128) hz2_3, View.ld_unit_zero (S := S10000x128) hz2_3]
  funext j
  obtain ⟨p, q, rfl⟩ : ∃ (p : Fin 200) (q : Fin 10000), j = ix2 p q := ⟨j 0, j 1, eq_ix2 j⟩
  refine (pay3_apply _ _ p q).trans ?_
  exact blockRead3 (V c main_v37) (V c main_v38) t p q

/-- An index of the output array is in point `t`'s block iff each coordinate is in the block's range on its axis. -/
theorem mem_blk3 (t : Fin cfg3.N) (i : S10000x10000.Idx) :
    i ∈ ((cfg3.win 2).blk t).view.set ↔ ∀ a : Fin 2, win3_2.index t a * S200x10000.size a ≤ (i a).val
      ∧ (i a).val < win3_2.index t a * S200x10000.size a + S200x10000.size a := by
  show i ∈ ((View.whole main_v39).slice (win3_2.rect t)).set ↔ _
  rw [View.set_slice_whole, Rect.mem_set_unit]
  exact Iff.rfl

/-- Every block of rows is some point's. -/
theorem idx_onto3 : ∀ q0 : Fin 50, ∃ t : Fin cfg3.N, t.val = q0.val :=
  (by decide +kernel : ∀ q0 : Fin 50, ∃ t : Fin grid3.N, t.val = q0.val)

/-- The fifty blocks tile the output array. -/
theorem cover3 (i : S10000x10000.Idx) : ∃ t : Fin cfg3.N, (cfg3.win 2).flush t = true ∧ i ∈ ((cfg3.win 2).blk t).view.set := by
  have hi0 : (i 0).val < 10000 := (i 0).isLt
  have hi1 : (i 1).val < 10000 := (i 1).isLt
  obtain ⟨t, ht⟩ := idx_onto3 ⟨(i 0).val / 200, by omega⟩
  have ht' : t.val = (i 0).val / 200 := ht
  obtain ⟨e00, e01, e10, e11, e20, e21⟩ := idx_facts3 t
  refine ⟨t, flush3_2 t, ?_⟩
  rw [mem_blk3]
  intro a
  match a with
  | ⟨0, _⟩ => show win3_2.index t (0 : Fin 2) * 200 ≤ (i 0).val ∧ (i 0).val < win3_2.index t (0 : Fin 2) * 200 + 200; omega
  | ⟨1, _⟩ => show win3_2.index t (1 : Fin 2) * 10000 ≤ (i 1).val ∧ (i 1).val < win3_2.index t (1 : Fin 2) * 10000 + 10000; omega

/-- After the region its output array is the decoded array of the arrays the region found. -/
theorem final3 (c : Dev nD) :
    (dat3 V c).arrAt 2 cfg3.N = decode (V c main_v37) (V c main_v38) :=
  (dat3 V c).arrAt_eq_of_cover 2 _ (fun t _ => flushed3 V c t) cover3

end Cert.KernelIdeal.Layers

end
-- ==== Proof.LibEdgeRows.lean ====
/-
  ROWS OF A TWO-AXIS ARRAY READ AND ACCUMULATED BY INDEX.

  A graph layer keeps one row of `F` numbers per node in an array `[N, F]` and works along `E` edges, each with a
  start node and an end node held in an integer array `[E, 1]`. It does two things with them:
  • it GATHERS, for every edge `e`, the whole row of the edge's start node: a `stablehlo.gather` whose slices are
    `1 × F`, collapsed on the node axis, so result element `(e, f)` is operand element `(row e, f)`, where `row e` is the
    start index read as a signed integer and clamped into `[0, N − 1]`;
  • it SCATTER-ADDS an `[E, F]` array of update rows into an `[N, F]` array at the edges' end nodes: a
    `stablehlo.scatter` with an `add` body whose windows are `1 × F`, inserted on the node axis, so element `(v, f)` of
    the result is the operand's plus the sum of `upd (e, f)` over the edges `e` whose index, read signed and NOT clamped,
    is exactly `v` (an index outside `[0, N)` lands nowhere and its row is dropped).
  Both are read here AT AN INDEX, for every width `F`; the row maps (`srcRow`, `landsOn`) do not depend on `F` nor on
  the column `f`.
-/
import Idealize.ShloMosaic.PureOps.Ideal.Laws
import Idealize.ShloMosaic.Lib.ValueIdx

noncomputable section

open Idealize.ShloMosaic Idealize.ShloMosaic.ValueIdx
open scoped BigOperators

namespace Cert.EdgeRows

/-! ## Gathering rows -/

/-- The dimension numbers of a gather of whole rows: operand `[N, F]`, start indices `[E, 1]` (one scalar index per
    edge, on the trailing axis), result `[E, F]`; slices `1 × F`, the node axis collapsed, the column axis the result's
    one offset axis. Their conditions `wf` are decided on a program's literal shapes. -/
abbrev rowGather (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The row edge `e` reads: its start index as a signed integer, clamped into `[0, N − 1]`. It depends neither on the
    width of the rows nor on the column. -/
def srcRow {N E w : Nat} (hN : 0 < N) (idx : IVec ⟨2, ![E, 1]⟩ w) (e : Fin E) : Fin N :=
  ⟨min (idx (ix2 e (0 : Fin 1))).toInt.toNat (N - 1), by omega⟩

/-- THE GATHER OF ROWS READ AT `(e, f)`: the operand at row `srcRow e`, same column. -/
theorem rowGather_apply {α : Type} {N E F w : Nat} (hN : 0 < N)
    (wf : GatherDims.WF ⟨2, ![N, F]⟩ ⟨2, ![E, 1]⟩ ⟨2, ![E, F]⟩ [1] [0] [] [0] [] 1 ![1, F])
    (x : (⟨2, ![N, F]⟩ : Shape).Idx → α) (idx : IVec ⟨2, ![E, 1]⟩ w) (e : Fin E) (f : Fin F) :
    Host.gather (rowGather N E F wf) x idx (ix2 e f) = x (ix2 (srcRow hN idx e) f) := by
  unfold Host.gather
  congr 1
  funext a
  refine Fin.ext ?_
  match a with
  | ⟨0, _⟩ =>
    show (rowGather N E F wf).start (ix2 e f) idx 0 + (rowGather N E F wf).batchCoord (ix2 e f) 0
      + (rowGather N E F wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E F wf).startIndexMap from List.mem_singleton.mpr rfl)]
    have hsi : (rowGather N E F wf).siIdx (ix2 e f) ⟨List.idxOf (0 : Fin 2) (rowGather N E F wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E F wf).start (ix2 e f) idx 1 + (rowGather N E F wf).batchCoord (ix2 e f) 1
      + (rowGather N E F wf).offCoord (ix2 e f) 1 = _
    have hst : (rowGather N E F wf).start (ix2 e f) idx 1 = 0 := by
      unfold GatherDims.start
      rw [dif_neg (fun h => absurd (List.mem_singleton.mp h) (show (1 : Fin 2) ≠ 0 by decide))]
    have hk : (1 : Fin 2) ∈ (rowGather N E F wf).sKept :=
      (GatherDims.mem_sKept _ _).mpr
        ⟨fun h => absurd (List.mem_singleton.mp h) (show (1 : Fin 2) ≠ 0 by decide), List.not_mem_nil⟩
    rw [hst, GatherDims.batchCoord_eq_zero _ _ _ List.not_mem_nil]
    unfold GatherDims.offCoord
    rw [dif_pos hk]
    simp only [Nat.zero_add, Nat.add_zero]
    rfl

/-! ## Scatter-adding rows -/

/-- The dimension numbers of a scatter of whole rows: operand `[N, F]`, scatter indices `[E, 1]` (one scalar index per
    edge, on the trailing axis), updates `[E, F]`; windows `1 × F`, the node axis inserted, the updates' column axis
    their one window axis. Their conditions `wf` are decided on a program's literal shapes. -/
abbrev rowScatter (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

/-- The edges whose update row lands on node `v`: those whose index, read as a signed integer and not clamped, is `v`.
    It depends neither on the width of the rows nor on the column. -/
def landsOn {N E w : Nat} (idx : IVec ⟨2, ![E, 1]⟩ w) (v : Fin N) : Finset (Fin E) :=
  Finset.univ.filter fun e => (idx (ix2 e (0 : Fin 1))).toInt = (v.val : Int)

/-- On the node axis update element `(e, f')` lands at its edge's index, read signed: the window is one row high. -/
theorem rowScatter_pos0 {N E F w : Nat} (wf : ScatterDims.WF ⟨2, ![N, F]⟩ ⟨2, ![E, 1]⟩ ⟨2, ![E, F]⟩ [1] [0] [0] 1)
    (idx : IVec ⟨2, ![E, 1]⟩ w) (e : Fin E) (f' : Fin F) :
    (rowScatter N E F wf).start (ix2 e f') idx 0 + ((rowScatter N E F wf).window (ix2 e f') 0 : Int)
      = (idx (ix2 e (0 : Fin 1))).toInt := by
  have hw : (rowScatter N E F wf).window (ix2 e f') 0 = 0 := by
    unfold ScatterDims.window
    rw [dif_neg]
    intro h
    have := (List.mem_filter.mp h).2
    simp at this
  rw [hw]
  unfold ScatterDims.start
  rw [dif_pos (show (0 : Fin 2) ∈ (rowScatter N E F wf).scatterDimsToOperandDims from List.mem_singleton.mpr rfl)]
  have hsi : (rowScatter N E F wf).siIdx (ix2 e f')
      ⟨List.idxOf (0 : Fin 2) (rowScatter N E F wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  simp

/-- On the column axis update element `(e, f')` lands at its own column: no index moves it. -/
theorem rowScatter_pos1 {N E F w : Nat} (wf : ScatterDims.WF ⟨2, ![N, F]⟩ ⟨2, ![E, 1]⟩ ⟨2, ![E, F]⟩ [1] [0] [0] 1)
    (idx : IVec ⟨2, ![E, 1]⟩ w) (e : Fin E) (f' : Fin F) :
    (rowScatter N E F wf).start (ix2 e f') idx 1 + ((rowScatter N E F wf).window (ix2 e f') 1 : Int)
      = (f'.val : Int) := by
  have hst : (rowScatter N E F wf).start (ix2 e f') idx 1 = 0 := by
    unfold ScatterDims.start
    rw [dif_neg (fun h => absurd (List.mem_singleton.mp h) (show (1 : Fin 2) ≠ 0 by decide))]
  have hk : (1 : Fin 2) ∈ (rowScatter N E F wf).sKept := by
    refine List.mem_filter.mpr ⟨List.mem_finRange _, ?_⟩
    simp
  have hw : (rowScatter N E F wf).window (ix2 e f') 1 = f'.val := by
    unfold ScatterDims.window
    rw [dif_pos hk]
    rfl
  rw [hst, hw, Int.zero_add]

/-- WHERE AN UPDATE ELEMENT LANDS: update element `(e, f')` lands on operand element `(v, f)` exactly when edge `e`'s
    index, read signed, is `v` and the columns agree. (An index outside `[0, N)` is no `v`: the row is dropped.) -/
theorem rowScatter_resultIdx {N E F w : Nat}
    (wf : ScatterDims.WF ⟨2, ![N, F]⟩ ⟨2, ![E, 1]⟩ ⟨2, ![E, F]⟩ [1] [0] [0] 1)
    (idx : IVec ⟨2, ![E, 1]⟩ w) (e : Fin E) (f' : Fin F) (v : Fin N) (f : Fin F) :
    (rowScatter N E F wf).resultIdx? (ix2 e f') idx = some (ix2 v f)
      ↔ ((idx (ix2 e (0 : Fin 1))).toInt = (v.val : Int) ∧ f' = f) := by
  have h0 := rowScatter_pos0 wf idx e f'
  have h1 := rowScatter_pos1 wf idx e f'
  unfold ScatterDims.resultIdx?
  constructor
  · intro hres
    split at hres
    · rename_i h
      have hg := Option.some.inj hres
      have e0 : ((rowScatter N E F wf).start (ix2 e f') idx 0
          + ((rowScatter N E F wf).window (ix2 e f') 0 : Int)).toNat = v.val :=
        congrArg (fun g : (⟨2, ![N, F]⟩ : Shape).Idx => (g 0).val) hg
      have e1 : ((rowScatter N E F wf).start (ix2 e f') idx 1
          + ((rowScatter N E F wf).window (ix2 e f') 1 : Int)).toNat = f.val :=
        congrArg (fun g : (⟨2, ![N, F]⟩ : Shape).Idx => (g 1).val) hg
      have b0 := (h 0).1
      rw [h0] at e0 b0
      rw [h1] at e1
      exact ⟨by omega, Fin.ext (by omega)⟩
    · exact absurd hres (by simp)
  · rintro ⟨hK, rfl⟩
    have h : ∀ a : Fin 2, 0 ≤ (rowScatter N E F wf).start (ix2 e f') idx a
          + ((rowScatter N E F wf).window (ix2 e f') a : Int)
        ∧ (rowScatter N E F wf).start (ix2 e f') idx a + ((rowScatter N E F wf).window (ix2 e f') a : Int)
          < (((⟨2, ![N, F]⟩ : Shape).size a : Nat) : Int) := by
      intro a
      match a with
      | ⟨0, _⟩ =>
        show 0 ≤ (rowScatter N E F wf).start (ix2 e f') idx 0 + ((rowScatter N E F wf).window (ix2 e f') 0 : Int)
          ∧ (rowScatter N E F wf).start (ix2 e f') idx 0 + ((rowScatter N E F wf).window (ix2 e f') 0 : Int)
            < ((N : Nat) : Int)
        rw [h0, hK]
        have := v.isLt
        omega
      | ⟨1, _⟩ =>
        show 0 ≤ (rowScatter N E F wf).start (ix2 e f') idx 1 + ((rowScatter N E F wf).window (ix2 e f') 1 : Int)
          ∧ (rowScatter N E F wf).start (ix2 e f') idx 1 + ((rowScatter N E F wf).window (ix2 e f') 1 : Int)
            < ((F : Nat) : Int)
        rw [h1]
        have := f'.isLt
        omega
    rw [dif_pos h]
    congr 1
    funext a
    refine Fin.ext ?_
    match a with
    | ⟨0, _⟩ =>
      show ((rowScatter N E F wf).start (ix2 e f') idx 0
        + ((rowScatter N E F wf).window (ix2 e f') 0 : Int)).toNat = v.val
      rw [h0, hK]
      omega
    | ⟨1, _⟩ =>
      show ((rowScatter N E F wf).start (ix2 e f') idx 1
        + ((rowScatter N E F wf).window (ix2 e f') 1 : Int)).toNat = f'.val
      rw [h1]
      omega

/-- THE SCATTER-ADD OF ROWS READ AT `(v, f)`: the operand's element plus the sum, over the edges landing on node `v`,
    of their update rows' element in the same column. -/
theorem rowScatterAdd_apply {N E F w : Nat} {φ : FTy}
    (wf : ScatterDims.WF ⟨2, ![N, F]⟩ ⟨2, ![E, 1]⟩ ⟨2, ![E, F]⟩ [1] [0] [0] 1)
    (x : FVec Ideal ⟨2, ![N, F]⟩ φ) (idx : IVec ⟨2, ![E, 1]⟩ w) (upd : FVec Ideal ⟨2, ![E, F]⟩ φ)
    (v : Fin N) (f : Fin F) :
    Host.scatterAdd (rowScatter N E F wf) x idx upd (ix2 v f)
      = x (ix2 v f) + ∑ e ∈ landsOn idx v, upd (ix2 e f) := by
  unfold Host.scatterAdd
  rw [Ideal.hostScatterAdd_def]
  unfold Ideal.hostScatterAdd landsOn
  congr 1
  rw [Finset.sum_filter, sum_idx2, Finset.sum_filter]
  refine Finset.sum_congr rfl fun a _ => ?_
  rw [Finset.sum_eq_single f]
  · by_cases hK : (idx (ix2 a (0 : Fin 1))).toInt = (v.val : Int)
    · rw [if_pos hK, if_pos ((rowScatter_resultIdx wf idx a f v f).mpr ⟨hK, rfl⟩)]
    · rw [if_neg hK, if_neg (fun h => hK ((rowScatter_resultIdx wf idx a f v f).mp h).1)]
  · intro b _ hb
    rw [if_neg (fun h => hb ((rowScatter_resultIdx wf idx a b v f).mp h).2)]
  · intro h
    exact absurd (Finset.mem_univ f) h

end Cert.EdgeRows

end
-- ==== Proof.LibFinite.lean ====
/-
  Finiteness is preserved by every operation between the inputs and the first linear layer's output, on the extended reals.

  An extended real IS REAL when it is the coercion of a real number (it is neither infinity); an array IS REAL when every
  entry is. Sums, differences and products of real numbers are real, so a finite sum of real entries is real; hence so are
  the entries of an elementwise sum, difference or product of real arrays, of a matrix product of real arrays (a finite
  sum of products, plus the accumulator's entry), of a sum over some axes, and of a scatter with addition (the operand's
  entry plus a finite sum of update entries). A gather, a broadcast, a transposition, a reshape and a slice only re-index:
  each entry of the result is an entry of the operand — whatever the start indices hold, since an out-of-range start index is
  clamped into the operand — so the result of a real operand is real. A quotient by a nonzero real number is real, and
  a change of float format is the identity.
-/
import Idealize.ShloMosaic.PureOps.Ideal.Laws
import Idealize.ShloMosaic.Lib.ValueIdx

noncomputable section

namespace Cert.Finite

open Idealize.ShloMosaic
open scoped BigOperators

/-! ## Real values -/

/-- An extended real that is (the coercion of) a real number. -/
def IsRealVal (x : EReal) : Prop := ∃ q : ℝ, x = (q : EReal)

/-- An array of extended reals every entry of which is a real number. -/
def IsReal {ι : Type*} (v : ι → EReal) : Prop := ∀ i, ∃ q : ℝ, v i = (q : EReal)

theorem IsReal.apply {ι : Type*} {v : ι → EReal} (h : IsReal v) (i : ι) : IsRealVal (v i) := h i

theorem isReal_iff {ι : Type*} (v : ι → EReal) : IsReal v ↔ ∀ i, IsRealVal (v i) := Iff.rfl

theorem IsRealVal.coe (q : ℝ) : IsRealVal (q : EReal) := ⟨q, rfl⟩

theorem IsRealVal.zero : IsRealVal 0 := ⟨0, EReal.coe_zero.symm⟩

theorem IsRealVal.one : IsRealVal 1 := ⟨1, EReal.coe_one.symm⟩

theorem IsRealVal.add {x y : EReal} (hx : IsRealVal x) (hy : IsRealVal y) : IsRealVal (x + y) := by
  obtain ⟨a, rfl⟩ := hx; obtain ⟨b, rfl⟩ := hy
  exact ⟨a + b, (EReal.coe_add a b).symm⟩

theorem IsRealVal.sub {x y : EReal} (hx : IsRealVal x) (hy : IsRealVal y) : IsRealVal (x - y) := by
  obtain ⟨a, rfl⟩ := hx; obtain ⟨b, rfl⟩ := hy
  exact ⟨a - b, (EReal.coe_sub a b).symm⟩

theorem IsRealVal.mul {x y : EReal} (hx : IsRealVal x) (hy : IsRealVal y) : IsRealVal (x * y) := by
  obtain ⟨a, rfl⟩ := hx; obtain ⟨b, rfl⟩ := hy
  exact ⟨a * b, (EReal.coe_mul a b).symm⟩

theorem IsRealVal.neg {x : EReal} (hx : IsRealVal x) : IsRealVal (-x) := by
  obtain ⟨a, rfl⟩ := hx
  exact ⟨-a, (EReal.coe_neg a).symm⟩

theorem IsRealVal.ne_top {x : EReal} (hx : IsRealVal x) : x ≠ ⊤ := by
  obtain ⟨a, rfl⟩ := hx; exact EReal.coe_ne_top a

theorem IsRealVal.ne_bot {x : EReal} (hx : IsRealVal x) : x ≠ ⊥ := by
  obtain ⟨a, rfl⟩ := hx; exact EReal.coe_ne_bot a

/-- An extended real other than the two infinities is a real number. -/
theorem isRealVal_of_ne {x : EReal} (ht : x ≠ ⊤) (hb : x ≠ ⊥) : IsRealVal x := by
  induction x using EReal.rec with
  | bot => exact absurd rfl hb
  | top => exact absurd rfl ht
  | coe r => exact ⟨r, rfl⟩

/-- An extended real whose absolute value `max x (-x)` is below `+∞` is a real number. -/
theorem isRealVal_of_abs_lt_top {x : EReal} (h : max x (-x) < ⊤) : IsRealVal x := by
  induction x using EReal.rec with
  | bot => simp at h
  | top => simp at h
  | coe r => exact ⟨r, rfl⟩

/-- The precondition's test, on one element: the host's `|x| < t` answers `1` for a bound `t` that denotes `+∞` only
    at a real number `x`. -/
theorem isRealVal_of_cmpf_abs {φ : FTy} (x t : Ideal φ) (ht : t = (⊤ : EReal))
    (h : FloatOps.cmpf .olt (FloatOps.hostAbsf x) t = 1#1) : IsRealVal x := by
  subst ht
  apply isRealVal_of_abs_lt_top
  by_contra hn
  have : FloatOps.cmpf (F := Ideal) (φ := φ) .olt (FloatOps.hostAbsf x) (⊤ : EReal) = 0#1 := by
    show Ideal.cmp .olt (max x (-x)) ⊤ = 0#1
    simp only [Ideal.cmp]
    rw [decide_eq_false hn]; rfl
  rw [this] at h
  exact absurd h (by decide)

/-- A finite sum of real numbers is a real number. -/
theorem IsRealVal.sum {ι : Type*} (s : Finset ι) (f : ι → EReal) (hf : ∀ i ∈ s, IsRealVal (f i)) :
    IsRealVal (∑ i ∈ s, f i) := by
  classical
  induction s using Finset.induction_on with
  | empty => rw [Finset.sum_empty]; exact IsRealVal.zero
  | insert a s ha ih =>
    rw [Finset.sum_insert ha]
    exact (hf a (Finset.mem_insert_self a s)).add (ih fun i hi => hf i (Finset.mem_insert_of_mem hi))

/-- A quotient of a real number by a nonzero real number is a real number. -/
theorem IsRealVal.div_coe {x : EReal} (hx : IsRealVal x) {N : ℝ} (hN : N ≠ 0) : IsRealVal (Ideal.div x (N : EReal)) := by
  rw [Ideal.div_coe hN]
  exact hx.mul (IsRealVal.coe _)

/-! ## Re-indexings: each entry of the result is an entry of the operand -/

/-- Reading a real array through any map of indices gives a real array. -/
theorem IsReal.comp {ι κ : Type*} {v : ι → EReal} (hv : IsReal v) (f : κ → ι) : IsReal (fun j => v (f j)) :=
  fun j => hv (f j)

/-- A gather's entry is the operand's at the operand index of the result index: the start index read off the index array,
    clamped so that the slice fits, plus the batch and offset coordinates — an index of the operand whatever the start
    indices hold. -/
theorem gather_apply {α : Type} {s si t : Shape} {w : Nat} (d : GatherDims s si t) (x : s.Idx → α) (idx : IVec si w) (j : t.Idx) :
    Host.gather d x idx j = x (d.operandIdx j idx) := rfl

/-- So a gather of a real array is real, at any dimension numbers and any start indices. -/
theorem IsReal.gather {s si t : Shape} {w : Nat} {φ : FTy} (d : GatherDims s si t) {x : FVec Ideal s φ} (hx : IsReal x)
    (idx : IVec si w) : IsReal (Host.gather d x idx) :=
  fun j => hx (d.operandIdx j idx)

theorem IsReal.broadcastInDim {s t : Shape} {φ : FTy} (dims : Fin s.rank → Fin t.rank) (h : s.BroadcastsInDim t dims)
    {x : FVec Ideal s φ} (hx : IsReal x) : IsReal (broadcastInDim t dims h x) :=
  fun _ => hx _

theorem IsReal.transpose {s t : Shape} {φ : FTy} (perm : List (Fin s.rank)) (h : s.Transposes perm t)
    {x : FVec Ideal s φ} (hx : IsReal x) : IsReal (transpose t perm x h) :=
  fun _ => hx _

theorem IsReal.shapeCast {s t : Shape} {φ : FTy} (h : s.ShapeCasts t) {x : FVec Ideal s φ} (hx : IsReal x) :
    IsReal (shapeCast t x h) :=
  fun _ => hx _

theorem IsReal.extractStridedSlice {s t : Shape} {φ : FTy} (off : Fin s.rank → Nat) (h : s.Slices off t)
    {x : FVec Ideal s φ} (hx : IsReal x) : IsReal (extractStridedSlice t off x h) :=
  fun _ => hx _

/-- A constant array is real when its pattern denotes a real number. -/
theorem IsReal.constant (s : Shape) (φ : FTy) (b : BitVec φ.bits) (hb : IsRealVal (Ideal.ofBits φ b)) :
    IsReal (constant (F := Ideal) s φ b) :=
  fun _ => hb

/-- The zero array (the pattern `+0.0` at `f32`) is real. -/
theorem IsReal.constant_zero_f32 (s : Shape) : IsReal (Idealize.ShloMosaic.constant (F := Ideal) s .f32 0x00000000#32) :=
  fun _ => ⟨0, by show Ideal.ofBits .f32 0x00000000#32 = _; rw [Ideal.ofBits_zero_f32, EReal.coe_zero]⟩

/-- A change of float format is the identity on the extended reals. -/
theorem IsReal.truncf {s : Shape} {φ ψ : FTy} {x : FVec Ideal s φ} (hx : IsReal x) (h : ψ.bits < φ.bits) :
    IsReal (truncf ψ x h : FVec Ideal s ψ) :=
  fun i => hx i

theorem IsReal.extf {s : Shape} {φ ψ : FTy} {x : FVec Ideal s φ} (hx : IsReal x) (h : φ.bits < ψ.bits) :
    IsReal (extf ψ x h : FVec Ideal s ψ) :=
  fun i => hx i

/-! ## Elementwise arithmetic -/

theorem IsReal.addf {s : Shape} {φ : FTy} {a b : FVec Ideal s φ} (ha : IsReal a) (hb : IsReal b) : IsReal (addf a b) :=
  fun i => (ha.apply i).add (hb.apply i)

theorem IsReal.subf {s : Shape} {φ : FTy} {a b : FVec Ideal s φ} (ha : IsReal a) (hb : IsReal b) : IsReal (subf a b) :=
  fun i => (ha.apply i).sub (hb.apply i)

theorem IsReal.mulf {s : Shape} {φ : FTy} {a b : FVec Ideal s φ} (ha : IsReal a) (hb : IsReal b) : IsReal (mulf a b) :=
  fun i => (ha.apply i).mul (hb.apply i)

/-- The host's quotient by an array whose entries are one nonzero real number. -/
theorem IsReal.hostDivf_coe {s : Shape} {φ : FTy} {a b : FVec Ideal s φ} (ha : IsReal a) {N : ℝ} (hN : N ≠ 0)
    (hb : ∀ i, b i = (N : EReal)) : IsReal (Host.divf a b) := fun i => by
  show IsRealVal (Ideal.div (a i) (b i))
  rw [hb i]
  exact (ha.apply i).div_coe hN

/-! ## Contractions and sums -/

/-- A kernel's matrix product of real arrays onto a real accumulator is real: at an index, the accumulator's entry plus the
    finite sum over the contraction index of the products of the operands' entries. -/
theorem IsReal.matmul {sl sr so : Shape} {φ₁ φ₂ : FTy} (d : DotDims sl sr so) (prec : Option ContractPrecision)
    {lhs : FVec Ideal sl φ₁} {rhs : FVec Ideal sr φ₂} {acc : FVec Ideal so .f32} (hl : IsReal lhs) (hr : IsReal rhs)
    (ha : IsReal acc) : IsReal (FloatOps.matmul d prec lhs rhs acc) := fun j => by
  rw [Ideal.matmul_apply]
  exact (ha.apply j).add (IsRealVal.sum _ _ fun k _ => (hl.apply _).mul (hr.apply _))

/-- The host's `dot_general` of real arrays is real: the same finite sum of products, onto zero. -/
theorem IsReal.dotGeneral {sl sr so : Shape} {φ₁ φ₂ : FTy} (d : DotDims sl sr so) (prec : Option ContractPrecision)
    (sched : HostSchedule) {lhs : FVec Ideal sl φ₁} {rhs : FVec Ideal sr φ₂} (hl : IsReal lhs) (hr : IsReal rhs) :
    IsReal (FloatOps.dotGeneral d prec sched lhs rhs) := fun j => by
  rw [Ideal.dotGeneral_apply]
  exact IsRealVal.sum _ _ fun k _ => (hl.apply _).mul (hr.apply _)

/-- The host's sum over some axes of a real array from a real initial value is real: at an index, the initial value plus
    the finite sum of the operand's entries that reduce to it. -/
theorem IsReal.hostReduceAdd {s t u : Shape} {φ : FTy} {axes : List (Fin s.rank)} {x : FVec Ideal s φ} (hx : IsReal x)
    {init : u.Idx → Ideal φ} (hi : IsReal init) (h : s.ReducesTo axes t) (hu : 0 < u.numel) :
    IsReal (Host.reduceAdd x init h hu) := fun j => by
  show IsRealVal (Ideal.hostReduceAdd h x (init (Shape.Idx.first hu)) j)
  unfold Ideal.hostReduceAdd
  exact (hi.apply _).add (IsRealVal.sum _ _ fun i _ => hx.apply i)

/-- A kernel's sum over some axes of a real array is real. -/
theorem IsReal.reduceAdd {s t : Shape} {axes : List (Fin s.rank)} (h : s.Reduces axes t) {x : s.Idx → EReal} (hx : IsReal x) :
    IsReal (Ideal.reduceAdd h x) := fun j => by
  unfold Ideal.reduceAdd
  exact IsRealVal.sum _ _ fun i _ => hx.apply i

/-- … as the printed `vector.multi_reduction <add>` spells it. -/
theorem IsReal.multiReduction_add {s t : Shape} {φ : FTy} {axes : List (Fin s.rank)} {src : FVec Ideal s φ} (hx : IsReal src)
    (acc : BitVec φ.bits) (h : s.Reduces axes t) (hφ : FKind.Formats φ) (hacc : acc = FKind.add.neutral φ hφ) :
    IsReal (multiReduction .add axes t src acc h hφ hacc) :=
  IsReal.reduceAdd h hx

/-- A scatter with addition, read at an index: the operand's entry plus the finite sum of the update entries whose result
    index is that index (an update that lands outside the operand is dropped). -/
theorem scatterAdd_apply {s si u : Shape} {w : Nat} {φ : FTy} (d : ScatterDims s si u) (x : FVec Ideal s φ) (idx : IVec si w)
    (upd : FVec Ideal u φ) (i : s.Idx) :
    Host.scatterAdd d x idx upd i = x i + ∑ j ∈ Finset.univ.filter (fun j => d.resultIdx? j idx = some i), upd j := rfl

/-- So a scatter with addition of real updates into a real operand is real, at any dimension numbers and any indices. -/
theorem IsReal.scatterAdd {s si u : Shape} {w : Nat} {φ : FTy} (d : ScatterDims s si u) {x : FVec Ideal s φ} (hx : IsReal x)
    (idx : IVec si w) {upd : FVec Ideal u φ} (hu : IsReal upd) : IsReal (Host.scatterAdd d x idx upd) := fun i => by
  rw [scatterAdd_apply]
  exact (hx.apply i).add (IsRealVal.sum _ _ fun j _ => hu.apply j)

end Cert.Finite

end
-- ==== Proof.KStages.lean ====
/-
  The vocabulary of the graph layers: the degree scales, the edge index arrays, and the aggregation over edges.

  Both programs compute, from the edge start array and the edge end array, a scale per node: the reciprocal square root of the
  node's degree clamped below at one, the degree being the number of edges that land on the node (a scatter of ones with addition
  into zeros). Both aggregate an array of node rows over the edges: row e of the gathered array is the node row at edge e's start
  index (a negative index shifted by the number of nodes, then clamped into range), and the aggregated row of node v is zero plus
  the sum of the gathered rows of the edges whose end index is v. Read at an index, the aggregation is a finite sum over those
  edges, with the row maps the same for every row width.
-/
import proofs.«147585_j10024453669132_2_alg».proof.Proof.Gen.KernelIdeal
import proofs.«147585_j10024453669132_2_alg».proof.Proof.LibEdgeRows
import proofs.«147585_j10024453669132_2_alg».proof.Proof.LibFinite
import Idealize.ShloMosaic.Lib.IdealHost

noncomputable section

namespace Cert.KernelIdeal.Layers

open Cert.KernelIdeal Cert.KernelIdeal.Gen Idealize.ShloMosaic Idealize.ShloMosaic.ValueIdx Cert.EdgeRows Cert.Finite
open scoped BigOperators

/-- The number of edges landing on each node, by the edge index array `a`: ones scattered with addition into zeros. -/
def degree (a : IVec S320000 32) : FVec Ideal S10000 .f32 :=
  Host.scatterAdd scatter_S10000_S320000x1_S320000_n_0_0_1
    (broadcastInDim S10000 ![] bcast_S_S10000 (constant (F := Ideal) S_ .f32 0x00000000#32))
    (broadcastInDim S320000x1 ![0] bcast_S320000_S320000x1_0 a)
    (broadcastInDim S320000 ![] bcast_S_S320000 (constant (F := Ideal) S_ .f32 0x3F800000#32))

/-- The degree clamped below at one. -/
def clampedDegree (a : IVec S320000 32) : FVec Ideal S10000 .f32 :=
  maximumf (broadcastInDim S10000 ![] bcast_S_S10000 (id (constant (F := Ideal) S_ .f32 0x3F800000#32))) (degree a)

/-- The per-node scale as a column: the reciprocal square root of the clamped degree. -/
def invSqrtDeg (a : IVec S320000 32) : FVec Ideal S10000x1 .f32 :=
  broadcastInDim S10000x1 ![0] bcast_S10000_S10000x1_0 (Host.rsqrt (clampedDegree a))

/-- The edge start indices as a column, a negative index shifted by the number of nodes. -/
def srcIdx (a1 : IVec S320000 32) : IVec S320000x1 32 :=
  broadcastInDim S320000x1 ![0] bcast_S320000_S320000x1_0
    (select (cmpi .slt a1 (broadcastInDim S320000 ![] bcast_S_S320000 (constantI S_ 32 0#32)))
      (addi a1 (broadcastInDim S320000 ![] bcast_S_S320000 (constantI S_ 32 10000#32))) a1)

/-- The edge end indices as a column. -/
def dstIdx (a2 : IVec S320000 32) : IVec S320000x1 32 :=
  broadcastInDim S320000x1 ![0] bcast_S320000_S320000x1_0 a2

/-- The aggregation of 256-wide node rows over the edges: gather at the start indices, scatter with addition at the end indices
    into zeros. -/
def aggregate (Y : FVec Ideal S10000x256 .f32) (a1 a2 : IVec S320000 32) : FVec Ideal S10000x256 .f32 :=
  Host.scatterAdd scatter_S10000x256_S320000x1_S320000x256_1_0_0_1
    (broadcastInDim S10000x256 ![] bcast_S_S10000x256 (constant (F := Ideal) S_ .f32 0x00000000#32))
    (dstIdx a2)
    (Host.gather gather_S10000x256_S320000x1_S320000x256_1_0_n_n_0_1_1256 Y (srcIdx a1))

/-- The node row edge `e` reads. -/
abbrev rowOf (a1 : IVec S320000 32) (e : Fin 320000) : Fin 10000 := srcRow (N := 10000) (by decide) (srcIdx a1) e

/-- The edges that land on node `v`. -/
abbrev edgesOf (a2 : IVec S320000 32) (v : Fin 10000) : Finset (Fin 320000) := landsOn (dstIdx a2) v

/-- The aggregation read at an index: zero plus the sum, over the edges landing on the node, of the entry of the source row. -/
theorem aggregate_apply (Y : FVec Ideal S10000x256 .f32) (a1 a2 : IVec S320000 32) (v : Fin 10000) (f : Fin 256) :
    aggregate Y a1 a2 (ix2 v f) = Ideal.ofBits .f32 0x00000000#32 + ∑ e ∈ edgesOf a2 v, Y (ix2 (rowOf a1 e) f) := by
  have wfs : ScatterDims.WF ⟨2, ![10000, 256]⟩ ⟨2, ![320000, 1]⟩ ⟨2, ![320000, 256]⟩ [1] [0] [0] 1 :=
    scatter_S10000x256_S320000x1_S320000x256_1_0_0_1.wf
  have wfg : GatherDims.WF ⟨2, ![10000, 256]⟩ ⟨2, ![320000, 1]⟩ ⟨2, ![320000, 256]⟩ [1] [0] [] [0] [] 1 ![1, 256] :=
    gather_S10000x256_S320000x1_S320000x256_1_0_n_n_0_1_1256.wf
  unfold aggregate
  refine (rowScatterAdd_apply (N := 10000) (E := 320000) (F := 256) wfs _ (dstIdx a2) _ v f).trans ?_
  refine congrArg₂ (· + ·) rfl (Finset.sum_congr rfl fun e _ => ?_)
  exact rowGather_apply (N := 10000) (E := 320000) (F := 256) (by decide) wfg Y (srcIdx a1) e f

/-- A degree is a real number: a finite sum of ones onto zero. -/
theorem isReal_degree (a : IVec S320000 32) : IsReal (degree a) := by
  unfold degree
  refine IsReal.scatterAdd _ (fun _ => ⟨0, ?_⟩) _ (fun _ => ⟨1, ?_⟩)
  · show Ideal.ofBits .f32 0x00000000#32 = _
    rw [Ideal.ofBits_zero_f32, EReal.coe_zero]
  · show Ideal.ofBits .f32 0x3F800000#32 = _
    rw [Ideal.ofBits_one_f32, EReal.coe_one]

/-- The clamped degree is a real number at least one. -/
theorem clampedDegree_eq (a : IVec S320000 32) (i : S10000.Idx) : ∃ d : ℝ, clampedDegree a i = ((max 1 d : ℝ) : EReal) := by
  obtain ⟨d, hd⟩ := isReal_degree a i
  refine ⟨d, ?_⟩
  show max (Ideal.ofBits .f32 0x3F800000#32) (degree a i) = _
  rw [hd, Ideal.ofBits_one_f32, ← EReal.coe_one]
  exact (EReal.coe_strictMono.monotone.map_max).symm

/-- The reciprocal square root of a real number at least one is a real number. -/
theorem rsqrt_real_of_ge_one (x : EReal) (h : ∃ d : ℝ, x = ((max 1 d : ℝ) : EReal)) : ∃ q : ℝ, Ideal.rsqrt x = (q : EReal) := by
  obtain ⟨d, rfl⟩ := h
  have hpos : (0 : ℝ) < max 1 d := lt_of_lt_of_le one_pos (le_max_left _ _)
  exact ⟨(Real.sqrt (max 1 d))⁻¹, by rw [Ideal.rsqrt_coe, if_neg (not_lt.mpr hpos.le), if_neg hpos.ne']⟩

/-- The host's reciprocal square root of an array, at an index, is that of the entry. -/
theorem hostRsqrt_apply {s : Shape} {φ : FTy} (v : FVec Ideal s φ) (i : s.Idx) : Host.rsqrt v i = Ideal.rsqrt (v i) := rfl

/-- The reciprocal square root of the clamped degree is a real number. -/
theorem isReal_rsqrt_clampedDegree (a : IVec S320000 32) : IsReal (Host.rsqrt (clampedDegree a)) := fun i => by
  rw [hostRsqrt_apply]
  exact rsqrt_real_of_ge_one _ (clampedDegree_eq a i)

/-- The degree scale, a column of those numbers, is real. -/
theorem isReal_invSqrtDeg (a : IVec S320000 32) : IsReal (invSqrtDeg a) :=
  IsReal.broadcastInDim _ _ (isReal_rsqrt_clampedDegree a)

end Cert.KernelIdeal.Layers

end
-- ==== Proof.KPipeline.lean ====
/-
  The kernel program's result as one function of its ten arguments.

  hidden: project-and-scale the features, aggregate over the edges, then affine map, rectify and rescale;
  latent: aggregate the hidden rows over the edges, project through the two weight matrices side by side with the two biases end to
  end, and add to the left half the noise times the exponential of the right half;
  result: the logistic function of the inner products of the latent rows.
-/
import proofs.«147585_j10024453669132_2_alg».proof.Proof.KRegion0
import proofs.«147585_j10024453669132_2_alg».proof.Proof.KRegion1
import proofs.«147585_j10024453669132_2_alg».proof.Proof.KRegion2
import proofs.«147585_j10024453669132_2_alg».proof.Proof.KRegion3
import proofs.«147585_j10024453669132_2_alg».proof.Proof.KStages

noncomputable section

namespace Cert.KernelIdeal.Layers

open Cert.KernelIdeal Cert.KernelIdeal.Gen Idealize.ShloMosaic Idealize.ShloMosaic.ValueIdx

/-- The hidden layer, already rescaled by the source-side degree factor for the next aggregation. -/
def hidden (a0 : FVec Ideal S10000x512 .f32) (a1 a2 : IVec S320000 32) (a4 : FVec Ideal S512x256 .f32) (a5 : FVec Ideal S256 .f32) :
    FVec Ideal S10000x256 .f32 :=
  affineReluScale (aggregate (projScale a0 a4 (invSqrtDeg a1)) a1 a2) (invSqrtDeg a2) a5 (invSqrtDeg a1)

/-- The two second-layer weight matrices side by side. -/
def weightsCat (a6 a8 : FVec Ideal S256x128 .f32) : FVec Ideal S256x256 .f32 :=
  concatenate S256x256 1 [⟨S256x128, a6⟩, ⟨S256x128, a8⟩] concatenates_S256x128_S256x128_S256x256_d1

/-- The two second-layer biases end to end. -/
def biasCat (a7 a9 : FVec Ideal S128 .f32) : FVec Ideal S256 .f32 :=
  concatenate S256 0 [⟨S128, a7⟩, ⟨S128, a9⟩] concatenates_S128_S128_S256_d0

/-- The latent rows. -/
def latent (a0 : FVec Ideal S10000x512 .f32) (a1 a2 : IVec S320000 32) (a3 : FVec Ideal S10000x128 .f32) (a4 : FVec Ideal S512x256 .f32)
    (a5 : FVec Ideal S256 .f32) (a6 : FVec Ideal S256x128 .f32) (a7 : FVec Ideal S128 .f32) (a8 : FVec Ideal S256x128 .f32)
    (a9 : FVec Ideal S128 .f32) : FVec Ideal S10000x128 .f32 :=
  encode (aggregate (hidden a0 a1 a2 a4 a5) a1 a2) (weightsCat a6 a8) (biasCat a7 a9) (invSqrtDeg a2) a3

/-- The program's result. -/
def kernelValue (a0 : FVec Ideal S10000x512 .f32) (a1 a2 : IVec S320000 32) (a3 : FVec Ideal S10000x128 .f32) (a4 : FVec Ideal S512x256 .f32)
    (a5 : FVec Ideal S256 .f32) (a6 : FVec Ideal S256x128 .f32) (a7 : FVec Ideal S128 .f32) (a8 : FVec Ideal S256x128 .f32)
    (a9 : FVec Ideal S128 .f32) : FVec Ideal S10000x10000 .f32 :=
  decode (latent a0 a1 a2 a3 a4 a5 a6 a7 a8 a9) (truncf .bf16 (latent a0 a1 a2 a3 a4 a5 a6 a7 a8 a9) bitsLt_bf16_f32)

end Cert.KernelIdeal.Layers

end
-- ==== Proof.LibFold.lean ====
/-
  Reading a fold of host operations in one pass.

  The contents of a buffer after a straight line of host operations is a fold: each operation rewrites the buffer it writes
  and leaves every other buffer as it was. The tactic below unfolds such a fold — also through a concatenation of lines and
  through nested folds — down to the operations' functions applied to the contents the fold starts from, visiting each
  shared intermediate once.
-/
import Idealize.ShloMosaic.Lib.StableHlo.Run
import Idealize.ShloMosaic.Lib.Pipeline.Frame

namespace Cert.LibFold

open Idealize.ShloMosaic Idealize.ShloMosaic.StableHlo

/-- Rewrites every `after ops V b` in the goal, for literal lines `ops` over literal references, to the operations' functions of
    `V` at the buffers read: one simplifier pass per round, and between rounds one rewrite at a time for a reshape's result and frame and
    for whatever occurrence the pass left. -/
macro "after_all" : tactic =>
  `(tactic| (try simp only [StableHlo.after_append, after_cons, after_nil]
             repeat (first
               | rw [reshape_result]
               | (rw [reshape_result_ne]; rotate_left; decide)
               | simp (disch := decide) only [StableHlo.after_append, after_cons, after_nil,
                   nullary_result', unary_result', binary_result', ternary_result', quaternary_result', nary4_result', nary_result',
                   unaryIndexed_result', binaryIndexed_result',
                   nullary_result_ne', unary_result_ne', binary_result_ne', ternary_result_ne', quaternary_result_ne',
                   nary_result_ne', unaryIndexed_result_ne', binaryIndexed_result_ne']
               | rw [nullary_result] | rw [unary_result] | rw [binary_result] | rw [ternary_result] | rw [quaternary_result]
               | rw [binaryIndexed_result] | rw [nary4_result] | rw [nary_result] | rw [unaryIndexed_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [binaryIndexed_result_ne]; rotate_left; decide)
               | (rw [nary_result_ne]; rotate_left; decide)
               | (rw [unaryIndexed_result_ne]; rotate_left; decide))))

end Cert.LibFold
-- ==== Proof.KValue.lean ====
/-
  The contents of the result buffer after the run, as the kernel's value function of the launch arguments.

  The run's buffer contents are a fold through the program: a stretch of host operations rewrites the buffers it writes and leaves
  every other buffer; a pipelined region leaves in its output array the whole-array function of its operand arrays and leaves every
  other buffer. Reading the fold back level by level: the argument buffers and the two degree-scale columns are carried unchanged to
  where they are read; each region's output is its stage function of the earlier outputs; the aggregations between the regions are
  the gather and scatter of the previous output at the edge index columns.
-/
import proofs.«147585_j10024453669132_2_alg».proof.Proof.Gen.KernelIdeal.Frame
import proofs.«147585_j10024453669132_2_alg».proof.Proof.KPipeline
import proofs.«147585_j10024453669132_2_alg».proof.Proof.LibFold

set_option maxRecDepth 16384

noncomputable section

namespace Cert.KernelIdeal.Layers

open Cert.KernelIdeal Cert.KernelIdeal.Gen Idealize.ShloMosaic Idealize.ShloMosaic.TcCoe Idealize.ShloMosaic.ValueIdx Idealize.SL.Sem
open Idealize.ShloMosaic.StableHlo

/-- No operation of the stretch writes the buffer: its contents after the stretch are its contents before. -/
macro "unwritten" : tactic =>
  `(tactic| (refine StableHlo.after_of_forall_not_mem _ _ (List.forall_iff_forall_mem.mp (by
      simp only [hostOps0, hostOps0_1, hostOps0_2, hostOps0_3, hostOps0_4, hostOps1, hostOps2, hostOps3,
        List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))))

variable (m : (ℓ : Loc nD τ sig) → Buf (Elt Ideal) ℓ) (ρ : Dev nD → PrngReg) (c : Dev nD)

theorem W5_arg0 : W5 m ρ c (Proc.devRef .tc main_arg0) = m ((c : Thread nD τ).loc main_arg0) := by
  have h5 : W5 m ρ c (Proc.devRef .tc main_arg0) = W4 m ρ c (Proc.devRef .tc main_arg0) := by unwritten
  have h4 : W4 m ρ c (Proc.devRef .tc main_arg0) = W3 m ρ c (Proc.devRef .tc main_arg0) := by unwritten
  have h3 : W3 m ρ c (Proc.devRef .tc main_arg0) = W2 m ρ c (Proc.devRef .tc main_arg0) := by unwritten
  have h2 : W2 m ρ c (Proc.devRef .tc main_arg0) = W1 m ρ c (Proc.devRef .tc main_arg0) := by unwritten
  have h1 : W1 m ρ c (Proc.devRef .tc main_arg0) = W0 m ρ c (Proc.devRef .tc main_arg0) := by unwritten
  exact h5.trans (h4.trans (h3.trans (h2.trans (h1.trans rfl))))

theorem W5_arg1 : W5 m ρ c (Proc.devRef .tc main_arg1) = m ((c : Thread nD τ).loc main_arg1) := by
  have h5 : W5 m ρ c (Proc.devRef .tc main_arg1) = W4 m ρ c (Proc.devRef .tc main_arg1) := by unwritten
  have h4 : W4 m ρ c (Proc.devRef .tc main_arg1) = W3 m ρ c (Proc.devRef .tc main_arg1) := by unwritten
  have h3 : W3 m ρ c (Proc.devRef .tc main_arg1) = W2 m ρ c (Proc.devRef .tc main_arg1) := by unwritten
  have h2 : W2 m ρ c (Proc.devRef .tc main_arg1) = W1 m ρ c (Proc.devRef .tc main_arg1) := by unwritten
  have h1 : W1 m ρ c (Proc.devRef .tc main_arg1) = W0 m ρ c (Proc.devRef .tc main_arg1) := by unwritten
  exact h5.trans (h4.trans (h3.trans (h2.trans (h1.trans rfl))))

theorem W5_arg2 : W5 m ρ c (Proc.devRef .tc main_arg2) = m ((c : Thread nD τ).loc main_arg2) := by
  have h5 : W5 m ρ c (Proc.devRef .tc main_arg2) = W4 m ρ c (Proc.devRef .tc main_arg2) := by unwritten
  have h4 : W4 m ρ c (Proc.devRef .tc main_arg2) = W3 m ρ c (Proc.devRef .tc main_arg2) := by unwritten
  have h3 : W3 m ρ c (Proc.devRef .tc main_arg2) = W2 m ρ c (Proc.devRef .tc main_arg2) := by unwritten
  have h2 : W2 m ρ c (Proc.devRef .tc main_arg2) = W1 m ρ c (Proc.devRef .tc main_arg2) := by unwritten
  have h1 : W1 m ρ c (Proc.devRef .tc main_arg2) = W0 m ρ c (Proc.devRef .tc main_arg2) := by unwritten
  exact h5.trans (h4.trans (h3.trans (h2.trans (h1.trans rfl))))

theorem W5_arg3 : W5 m ρ c (Proc.devRef .tc main_arg3) = m ((c : Thread nD τ).loc main_arg3) := by
  have h5 : W5 m ρ c (Proc.devRef .tc main_arg3) = W4 m ρ c (Proc.devRef .tc main_arg3) := by unwritten
  have h4 : W4 m ρ c (Proc.devRef .tc main_arg3) = W3 m ρ c (Proc.devRef .tc main_arg3) := by unwritten
  have h3 : W3 m ρ c (Proc.devRef .tc main_arg3) = W2 m ρ c (Proc.devRef .tc main_arg3) := by unwritten
  have h2 : W2 m ρ c (Proc.devRef .tc main_arg3) = W1 m ρ c (Proc.devRef .tc main_arg3) := by unwritten
  have h1 : W1 m ρ c (Proc.devRef .tc main_arg3) = W0 m ρ c (Proc.devRef .tc main_arg3) := by unwritten
  exact h5.trans (h4.trans (h3.trans (h2.trans (h1.trans rfl))))

theorem W5_arg4 : W5 m ρ c (Proc.devRef .tc main_arg4) = m ((c : Thread nD τ).loc main_arg4) := by
  have h5 : W5 m ρ c (Proc.devRef .tc main_arg4) = W4 m ρ c (Proc.devRef .tc main_arg4) := by unwritten
  have h4 : W4 m ρ c (Proc.devRef .tc main_arg4) = W3 m ρ c (Proc.devRef .tc main_arg4) := by unwritten
  have h3 : W3 m ρ c (Proc.devRef .tc main_arg4) = W2 m ρ c (Proc.devRef .tc main_arg4) := by unwritten
  have h2 : W2 m ρ c (Proc.devRef .tc main_arg4) = W1 m ρ c (Proc.devRef .tc main_arg4) := by unwritten
  have h1 : W1 m ρ c (Proc.devRef .tc main_arg4) = W0 m ρ c (Proc.devRef .tc main_arg4) := by unwritten
  exact h5.trans (h4.trans (h3.trans (h2.trans (h1.trans rfl))))

theorem W5_arg5 : W5 m ρ c (Proc.devRef .tc main_arg5) = m ((c : Thread nD τ).loc main_arg5) := by
  have h5 : W5 m ρ c (Proc.devRef .tc main_arg5) = W4 m ρ c (Proc.devRef .tc main_arg5) := by unwritten
  have h4 : W4 m ρ c (Proc.devRef .tc main_arg5) = W3 m ρ c (Proc.devRef .tc main_arg5) := by unwritten
  have h3 : W3 m ρ c (Proc.devRef .tc main_arg5) = W2 m ρ c (Proc.devRef .tc main_arg5) := by unwritten
  have h2 : W2 m ρ c (Proc.devRef .tc main_arg5) = W1 m ρ c (Proc.devRef .tc main_arg5) := by unwritten
  have h1 : W1 m ρ c (Proc.devRef .tc main_arg5) = W0 m ρ c (Proc.devRef .tc main_arg5) := by unwritten
  exact h5.trans (h4.trans (h3.trans (h2.trans (h1.trans rfl))))

theorem W5_arg6 : W5 m ρ c (Proc.devRef .tc main_arg6) = m ((c : Thread nD τ).loc main_arg6) := by
  have h5 : W5 m ρ c (Proc.devRef .tc main_arg6) = W4 m ρ c (Proc.devRef .tc main_arg6) := by unwritten
  have h4 : W4 m ρ c (Proc.devRef .tc main_arg6) = W3 m ρ c (Proc.devRef .tc main_arg6) := by unwritten
  have h3 : W3 m ρ c (Proc.devRef .tc main_arg6) = W2 m ρ c (Proc.devRef .tc main_arg6) := by unwritten
  have h2 : W2 m ρ c (Proc.devRef .tc main_arg6) = W1 m ρ c (Proc.devRef .tc main_arg6) := by unwritten
  have h1 : W1 m ρ c (Proc.devRef .tc main_arg6) = W0 m ρ c (Proc.devRef .tc main_arg6) := by unwritten
  exact h5.trans (h4.trans (h3.trans (h2.trans (h1.trans rfl))))

theorem W5_arg7 : W5 m ρ c (Proc.devRef .tc main_arg7) = m ((c : Thread nD τ).loc main_arg7) := by
  have h5 : W5 m ρ c (Proc.devRef .tc main_arg7) = W4 m ρ c (Proc.devRef .tc main_arg7) := by unwritten
  have h4 : W4 m ρ c (Proc.devRef .tc main_arg7) = W3 m ρ c (Proc.devRef .tc main_arg7) := by unwritten
  have h3 : W3 m ρ c (Proc.devRef .tc main_arg7) = W2 m ρ c (Proc.devRef .tc main_arg7) := by unwritten
  have h2 : W2 m ρ c (Proc.devRef .tc main_arg7) = W1 m ρ c (Proc.devRef .tc main_arg7) := by unwritten
  have h1 : W1 m ρ c (Proc.devRef .tc main_arg7) = W0 m ρ c (Proc.devRef .tc main_arg7) := by unwritten
  exact h5.trans (h4.trans (h3.trans (h2.trans (h1.trans rfl))))

theorem W5_arg8 : W5 m ρ c (Proc.devRef .tc main_arg8) = m ((c : Thread nD τ).loc main_arg8) := by
  have h5 : W5 m ρ c (Proc.devRef .tc main_arg8) = W4 m ρ c (Proc.devRef .tc main_arg8) := by unwritten
  have h4 : W4 m ρ c (Proc.devRef .tc main_arg8) = W3 m ρ c (Proc.devRef .tc main_arg8) := by unwritten
  have h3 : W3 m ρ c (Proc.devRef .tc main_arg8) = W2 m ρ c (Proc.devRef .tc main_arg8) := by unwritten
  have h2 : W2 m ρ c (Proc.devRef .tc main_arg8) = W1 m ρ c (Proc.devRef .tc main_arg8) := by unwritten
  have h1 : W1 m ρ c (Proc.devRef .tc main_arg8) = W0 m ρ c (Proc.devRef .tc main_arg8) := by unwritten
  exact h5.trans (h4.trans (h3.trans (h2.trans (h1.trans rfl))))

theorem W5_arg9 : W5 m ρ c (Proc.devRef .tc main_arg9) = m ((c : Thread nD τ).loc main_arg9) := by
  have h5 : W5 m ρ c (Proc.devRef .tc main_arg9) = W4 m ρ c (Proc.devRef .tc main_arg9) := by unwritten
  have h4 : W4 m ρ c (Proc.devRef .tc main_arg9) = W3 m ρ c (Proc.devRef .tc main_arg9) := by unwritten
  have h3 : W3 m ρ c (Proc.devRef .tc main_arg9) = W2 m ρ c (Proc.devRef .tc main_arg9) := by unwritten
  have h2 : W2 m ρ c (Proc.devRef .tc main_arg9) = W1 m ρ c (Proc.devRef .tc main_arg9) := by unwritten
  have h1 : W1 m ρ c (Proc.devRef .tc main_arg9) = W0 m ρ c (Proc.devRef .tc main_arg9) := by unwritten
  exact h5.trans (h4.trans (h3.trans (h2.trans (h1.trans rfl))))

theorem W5_v10 : W5 m ρ c (Proc.devRef .tc main_v10) = invSqrtDeg (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v10) = _
  after_all
  simp only [cast_eq]
  unfold invSqrtDeg clampedDegree degree
  rfl

theorem W5_v12 : W5 m ρ c (Proc.devRef .tc main_v12) = invSqrtDeg (m ((c : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_v12) = _
  after_all
  simp only [cast_eq]
  unfold invSqrtDeg clampedDegree degree
  rfl

theorem W6_arg1 : W6 m ρ c (Proc.devRef .tc main_arg1) = m ((c : Thread nD τ).loc main_arg1) := (W6_of_ne m ρ c main_arg1 (by decide)).trans (W5_arg1 m ρ c)

theorem W6_arg2 : W6 m ρ c (Proc.devRef .tc main_arg2) = m ((c : Thread nD τ).loc main_arg2) := (W6_of_ne m ρ c main_arg2 (by decide)).trans (W5_arg2 m ρ c)

theorem W6_arg3 : W6 m ρ c (Proc.devRef .tc main_arg3) = m ((c : Thread nD τ).loc main_arg3) := (W6_of_ne m ρ c main_arg3 (by decide)).trans (W5_arg3 m ρ c)

theorem W6_arg5 : W6 m ρ c (Proc.devRef .tc main_arg5) = m ((c : Thread nD τ).loc main_arg5) := (W6_of_ne m ρ c main_arg5 (by decide)).trans (W5_arg5 m ρ c)

theorem W6_arg6 : W6 m ρ c (Proc.devRef .tc main_arg6) = m ((c : Thread nD τ).loc main_arg6) := (W6_of_ne m ρ c main_arg6 (by decide)).trans (W5_arg6 m ρ c)

theorem W6_arg7 : W6 m ρ c (Proc.devRef .tc main_arg7) = m ((c : Thread nD τ).loc main_arg7) := (W6_of_ne m ρ c main_arg7 (by decide)).trans (W5_arg7 m ρ c)

theorem W6_arg8 : W6 m ρ c (Proc.devRef .tc main_arg8) = m ((c : Thread nD τ).loc main_arg8) := (W6_of_ne m ρ c main_arg8 (by decide)).trans (W5_arg8 m ρ c)

theorem W6_arg9 : W6 m ρ c (Proc.devRef .tc main_arg9) = m ((c : Thread nD τ).loc main_arg9) := (W6_of_ne m ρ c main_arg9 (by decide)).trans (W5_arg9 m ρ c)

theorem W6_v12 : W6 m ρ c (Proc.devRef .tc main_v12) = invSqrtDeg (m ((c : Thread nD τ).loc main_arg2)) := (W6_of_ne m ρ c main_v12 (by decide)).trans (W5_v12 m ρ c)

theorem W6_v10 : W6 m ρ c (Proc.devRef .tc main_v10) = invSqrtDeg (m ((c : Thread nD τ).loc main_arg1)) :=
  ((W6_arr m ρ c 2).trans (((dat0 (V5 m ρ) c).arrAt_in 2 rfl _).trans (A_eq0 (V5 m ρ) c 2))).trans (W5_v10 m ρ c)

/-- After the first region its output holds the projected-and-scaled rows of the features. -/
theorem W6_v13 : W6 m ρ c (Proc.devRef .tc main_v13) = projScale (m ((c : Thread nD τ).loc main_arg0)) (m ((c : Thread nD τ).loc main_arg4)) (invSqrtDeg (m ((c : Thread nD τ).loc main_arg1))) := by
  refine (W6_arr m ρ c 3).trans ((final0 (V5 m ρ) c).trans ?_)
  have e0 : V5 m ρ c main_arg0 = m ((c : Thread nD τ).loc main_arg0) := W5_arg0 m ρ c
  have e4 : V5 m ρ c main_arg4 = m ((c : Thread nD τ).loc main_arg4) := W5_arg4 m ρ c
  have e10 : V5 m ρ c main_v10 = invSqrtDeg (m ((c : Thread nD τ).loc main_arg1)) := W5_v10 m ρ c
  rw [e0, e4, e10]

theorem W7_arg1 : W7 m ρ c (Proc.devRef .tc main_arg1) = m ((c : Thread nD τ).loc main_arg1) :=
  (show W7 m ρ c (Proc.devRef .tc main_arg1) = W6 m ρ c (Proc.devRef .tc main_arg1) by unwritten).trans (W6_arg1 m ρ c)

theorem W7_arg2 : W7 m ρ c (Proc.devRef .tc main_arg2) = m ((c : Thread nD τ).loc main_arg2) :=
  (show W7 m ρ c (Proc.devRef .tc main_arg2) = W6 m ρ c (Proc.devRef .tc main_arg2) by unwritten).trans (W6_arg2 m ρ c)

theorem W7_arg3 : W7 m ρ c (Proc.devRef .tc main_arg3) = m ((c : Thread nD τ).loc main_arg3) :=
  (show W7 m ρ c (Proc.devRef .tc main_arg3) = W6 m ρ c (Proc.devRef .tc main_arg3) by unwritten).trans (W6_arg3 m ρ c)

theorem W7_arg5 : W7 m ρ c (Proc.devRef .tc main_arg5) = m ((c : Thread nD τ).loc main_arg5) :=
  (show W7 m ρ c (Proc.devRef .tc main_arg5) = W6 m ρ c (Proc.devRef .tc main_arg5) by unwritten).trans (W6_arg5 m ρ c)

theorem W7_arg6 : W7 m ρ c (Proc.devRef .tc main_arg6) = m ((c : Thread nD τ).loc main_arg6) :=
  (show W7 m ρ c (Proc.devRef .tc main_arg6) = W6 m ρ c (Proc.devRef .tc main_arg6) by unwritten).trans (W6_arg6 m ρ c)

theorem W7_arg7 : W7 m ρ c (Proc.devRef .tc main_arg7) = m ((c : Thread nD τ).loc main_arg7) :=
  (show W7 m ρ c (Proc.devRef .tc main_arg7) = W6 m ρ c (Proc.devRef .tc main_arg7) by unwritten).trans (W6_arg7 m ρ c)

theorem W7_arg8 : W7 m ρ c (Proc.devRef .tc main_arg8) = m ((c : Thread nD τ).loc main_arg8) :=
  (show W7 m ρ c (Proc.devRef .tc main_arg8) = W6 m ρ c (Proc.devRef .tc main_arg8) by unwritten).trans (W6_arg8 m ρ c)

theorem W7_arg9 : W7 m ρ c (Proc.devRef .tc main_arg9) = m ((c : Thread nD τ).loc main_arg9) :=
  (show W7 m ρ c (Proc.devRef .tc main_arg9) = W6 m ρ c (Proc.devRef .tc main_arg9) by unwritten).trans (W6_arg9 m ρ c)

theorem W7_v10 : W7 m ρ c (Proc.devRef .tc main_v10) = invSqrtDeg (m ((c : Thread nD τ).loc main_arg1)) :=
  (show W7 m ρ c (Proc.devRef .tc main_v10) = W6 m ρ c (Proc.devRef .tc main_v10) by unwritten).trans (W6_v10 m ρ c)

theorem W7_v12 : W7 m ρ c (Proc.devRef .tc main_v12) = invSqrtDeg (m ((c : Thread nD τ).loc main_arg2)) :=
  (show W7 m ρ c (Proc.devRef .tc main_v12) = W6 m ρ c (Proc.devRef .tc main_v12) by unwritten).trans (W6_v12 m ρ c)

/-- Before the second region its first operand holds the aggregated projected rows. -/
theorem W7_v23 : W7 m ρ c (Proc.devRef .tc main_v23)
    = aggregate (projScale (m ((c : Thread nD τ).loc main_arg0)) (m ((c : Thread nD τ).loc main_arg4)) (invSqrtDeg (m ((c : Thread nD τ).loc main_arg1)))) (m ((c : Thread nD τ).loc main_arg1)) (m ((c : Thread nD τ).loc main_arg2)) := by
  show StableHlo.after hostOps1 (W6 m ρ c) (Proc.devRef .tc main_v23) = _
  after_all
  rw [W6_v13 m ρ c, W6_arg1 m ρ c, W6_arg2 m ρ c]
  unfold aggregate srcIdx dstIdx
  rfl

theorem W8_arg1 : W8 m ρ c (Proc.devRef .tc main_arg1) = m ((c : Thread nD τ).loc main_arg1) := (W8_of_ne m ρ c main_arg1 (by decide)).trans (W7_arg1 m ρ c)

theorem W8_arg2 : W8 m ρ c (Proc.devRef .tc main_arg2) = m ((c : Thread nD τ).loc main_arg2) := (W8_of_ne m ρ c main_arg2 (by decide)).trans (W7_arg2 m ρ c)

theorem W8_arg3 : W8 m ρ c (Proc.devRef .tc main_arg3) = m ((c : Thread nD τ).loc main_arg3) := (W8_of_ne m ρ c main_arg3 (by decide)).trans (W7_arg3 m ρ c)

theorem W8_arg6 : W8 m ρ c (Proc.devRef .tc main_arg6) = m ((c : Thread nD τ).loc main_arg6) := (W8_of_ne m ρ c main_arg6 (by decide)).trans (W7_arg6 m ρ c)

theorem W8_arg7 : W8 m ρ c (Proc.devRef .tc main_arg7) = m ((c : Thread nD τ).loc main_arg7) := (W8_of_ne m ρ c main_arg7 (by decide)).trans (W7_arg7 m ρ c)

theorem W8_arg8 : W8 m ρ c (Proc.devRef .tc main_arg8) = m ((c : Thread nD τ).loc main_arg8) := (W8_of_ne m ρ c main_arg8 (by decide)).trans (W7_arg8 m ρ c)

theorem W8_arg9 : W8 m ρ c (Proc.devRef .tc main_arg9) = m ((c : Thread nD τ).loc main_arg9) := (W8_of_ne m ρ c main_arg9 (by decide)).trans (W7_arg9 m ρ c)

theorem W8_v12 : W8 m ρ c (Proc.devRef .tc main_v12) = invSqrtDeg (m ((c : Thread nD τ).loc main_arg2)) :=
  ((W8_arr m ρ c 1).trans (((dat1 (V7 m ρ) c).arrAt_in 1 rfl _).trans (A_eq1 (V7 m ρ) c 1))).trans (W7_v12 m ρ c)

/-- After the second region its output holds the hidden rows. -/
theorem W8_v24 : W8 m ρ c (Proc.devRef .tc main_v24) = hidden (m ((c : Thread nD τ).loc main_arg0)) (m ((c : Thread nD τ).loc main_arg1)) (m ((c : Thread nD τ).loc main_arg2)) (m ((c : Thread nD τ).loc main_arg4)) (m ((c : Thread nD τ).loc main_arg5)) := by
  refine (W8_arr m ρ c 4).trans ((final1 (V7 m ρ) c).trans ?_)
  have e23 : V7 m ρ c main_v23 = _ := W7_v23 m ρ c
  have e12 : V7 m ρ c main_v12 = _ := W7_v12 m ρ c
  have e5 : V7 m ρ c main_arg5 = _ := W7_arg5 m ρ c
  have e10 : V7 m ρ c main_v10 = _ := W7_v10 m ρ c
  rw [e23, e12, e5, e10]
  rfl

theorem W9_v12 : W9 m ρ c (Proc.devRef .tc main_v12) = invSqrtDeg (m ((c : Thread nD τ).loc main_arg2)) :=
  (show W9 m ρ c (Proc.devRef .tc main_v12) = W8 m ρ c (Proc.devRef .tc main_v12) by unwritten).trans (W8_v12 m ρ c)

theorem W9_arg3 : W9 m ρ c (Proc.devRef .tc main_arg3) = m ((c : Thread nD τ).loc main_arg3) :=
  (show W9 m ρ c (Proc.devRef .tc main_arg3) = W8 m ρ c (Proc.devRef .tc main_arg3) by unwritten).trans (W8_arg3 m ρ c)

/-- Before the third region its first operand holds the aggregated hidden rows. -/
theorem W9_v34 : W9 m ρ c (Proc.devRef .tc main_v34) = aggregate (hidden (m ((c : Thread nD τ).loc main_arg0)) (m ((c : Thread nD τ).loc main_arg1)) (m ((c : Thread nD τ).loc main_arg2)) (m ((c : Thread nD τ).loc main_arg4)) (m ((c : Thread nD τ).loc main_arg5))) (m ((c : Thread nD τ).loc main_arg1)) (m ((c : Thread nD τ).loc main_arg2)) := by
  show StableHlo.after hostOps2 (W8 m ρ c) (Proc.devRef .tc main_v34) = _
  after_all
  rw [W8_v24 m ρ c, W8_arg1 m ρ c, W8_arg2 m ρ c]
  unfold aggregate srcIdx dstIdx
  rfl
theorem W9_v35 : W9 m ρ c (Proc.devRef .tc main_v35) = weightsCat (m ((c : Thread nD τ).loc main_arg6)) (m ((c : Thread nD τ).loc main_arg8)) := by
  show StableHlo.after hostOps2 (W8 m ρ c) (Proc.devRef .tc main_v35) = _
  after_all
  rw [W8_arg6 m ρ c, W8_arg8 m ρ c]
  rfl
theorem W9_v36 : W9 m ρ c (Proc.devRef .tc main_v36) = biasCat (m ((c : Thread nD τ).loc main_arg7)) (m ((c : Thread nD τ).loc main_arg9)) := by
  show StableHlo.after hostOps2 (W8 m ρ c) (Proc.devRef .tc main_v36) = _
  after_all
  rw [W8_arg7 m ρ c, W8_arg9 m ρ c]
  rfl

/-- After the third region its output holds the latent rows. -/
theorem W10_v37 : W10 m ρ c (Proc.devRef .tc main_v37) = latent (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W10_arr m ρ c 5).trans ((final2 (V9 m ρ) c).trans ?_)
  have e34 : V9 m ρ c main_v34 = _ := W9_v34 m ρ c
  have e35 : V9 m ρ c main_v35 = _ := W9_v35 m ρ c
  have e36 : V9 m ρ c main_v36 = _ := W9_v36 m ρ c
  have e12 : V9 m ρ c main_v12 = _ := W9_v12 m ρ c
  have e3 : V9 m ρ c main_arg3 = _ := W9_arg3 m ρ c
  rw [e34, e35, e36, e12, e3]
  rfl

theorem W11_v37 : W11 m ρ c (Proc.devRef .tc main_v37) = latent (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (show W11 m ρ c (Proc.devRef .tc main_v37) = W10 m ρ c (Proc.devRef .tc main_v37) by unwritten).trans (W10_v37 m ρ c)
theorem W11_v38 : W11 m ρ c (Proc.devRef .tc main_v38) = truncf .bf16 (latent (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) bitsLt_bf16_f32 := by
  show StableHlo.after hostOps3 (W10 m ρ c) (Proc.devRef .tc main_v38) = _
  after_all
  rw [W10_v37 m ρ c]

/-- After the last region the result buffer holds the program's value of the launch arguments. -/
theorem W12_v39 : W12 m ρ c (Proc.devRef .tc main_v39) = kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 2).trans ((final3 (V11 m ρ) c).trans ?_)
  have e37 : V11 m ρ c main_v37 = _ := W11_v37 m ρ c
  have e38 : V11 m ρ c main_v38 = _ := W11_v38 m ρ c
  rw [e37, e38]
  rfl

end Cert.KernelIdeal.Layers

end
-- ==== Proof.LibRowSumLaw.lean ====
/-
  Aggregating rows over edges commutes with a linear map of the row, on the extended reals when every entry is a real number.

  A graph layer sums, for a node, the rows of its incoming edges' source nodes, each scaled by a per-source factor, scales the sum
  by a per-node factor and applies a linear map to the resulting row. Applying the linear map to every source row first and
  aggregating afterwards gives the same number: both are the double sum over edges and features of
  entry · weight · source factor · node factor. On the extended reals distributivity fails at the infinities, so the law is
  stated for real entries, and is proved by moving both sides into the real numbers.
-/
import Idealize.ShloMosaic.PureOps.Ideal.Laws

noncomputable section

namespace Cert.RowSumLaw

open scoped BigOperators

/-- The coercion of a finite sum of real numbers is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same law in the real numbers: the double sum taken in either order. -/
theorem aggregate_then_map_real {ε κ : Type*} [Fintype κ] (s : Finset ε) (x : ε → κ → ℝ) (a : ε → ℝ) (c : ℝ) (w : κ → ℝ) :
    (∑ e ∈ s, (∑ k, x e k * w k) * a e) * c = ∑ k, ((∑ e ∈ s, x e k * a e) * c) * w k := by
  simp only [Finset.sum_mul]
  rw [Finset.sum_comm]
  refine Finset.sum_congr rfl fun k _ => Finset.sum_congr rfl fun e _ => ?_
  ring

/-- Map every source row, scale it, aggregate over the edges `s` and scale by the node's factor `c`; or scale the source rows, aggregate,
    scale by `c` and map the aggregated row: one number, when the entries `x`, the weights `w` and the factors `a`, `c` are real. The
    aggregation starts from zero on both sides. -/
theorem aggregate_then_map {ε κ : Type*} [Fintype κ] (s : Finset ε) (x : ε → κ → EReal) (a : ε → EReal) (c : EReal) (w : κ → EReal)
    (hx : ∀ e k, ∃ q : ℝ, x e k = (q : EReal)) (ha : ∀ e, ∃ q : ℝ, a e = (q : EReal)) (hc : ∃ q : ℝ, c = (q : EReal))
    (hw : ∀ k, ∃ q : ℝ, w k = (q : EReal)) :
    (0 + ∑ e ∈ s, (∑ k, x e k * w k) * a e) * c = ∑ k, ((0 + ∑ e ∈ s, x e k * a e) * c) * w k := by
  choose xr hxr using hx
  choose ar har using ha
  choose wr hwr using hw
  obtain ⟨cr, rfl⟩ := hc
  simp only [hxr, har, hwr, zero_add, ← EReal.coe_mul, ← coe_sum]
  exact congrArg _ (aggregate_then_map_real s xr ar cr wr)

end Cert.RowSumLaw

end
-- ==== Proof.RefLayer1.lean ====
/-
  The first graph layer: the reference's arrangement and the kernel's give one array, for real inputs.

  The reference scales every source row, aggregates the scaled 512-wide rows over the edges, scales by the end node's factor and
  only then applies the weight matrix; the kernel applies the weight matrix to every source row first and aggregates the 256-wide
  projected rows. Entry (v, j) is on both sides the double sum, over the edges landing on v and over the 512 features, of
  feature · weight · source factor · node factor; the two orders of summation agree because every factor is a real number: the
  features and the weights by the precondition, the two degree factors because a clamped degree is a real number at least one.
-/
import proofs.«147585_j10024453669132_2_alg».proof.Proof.Gen.ReferenceIdeal.Read
import proofs.«147585_j10024453669132_2_alg».proof.Proof.KStages
import proofs.«147585_j10024453669132_2_alg».proof.Proof.KRegion0
import proofs.«147585_j10024453669132_2_alg».proof.Proof.LibRowSumLaw

noncomputable section

namespace Cert.Bridge

open Idealize.ShloMosaic Idealize.ShloMosaic.ValueIdx Cert.KernelIdeal.Layers Cert.Finite Cert.EdgeRows
open Cert.ReferenceIdeal.Read
open scoped BigOperators

variable (a0 : FVec Ideal Cert.KernelIdeal.S10000x512 .f32) (a1 a2 : IVec Cert.KernelIdeal.S320000 32)
  (a4 : FVec Ideal Cert.KernelIdeal.S512x256 .f32) (a5 : FVec Ideal Cert.KernelIdeal.S256 .f32)

/-- The reference's source-side degree scale is the kernel's. -/
theorem ref_srcScale : val_main_v10 (F := Ideal) a1 = invSqrtDeg a1 := rfl
/-- The reference's end-side degree scale is the kernel's. -/
theorem ref_dstScale : val_main_v24 (F := Ideal) a2 = invSqrtDeg a2 := rfl

/-- The reference's 512-wide aggregation is a row scatter with addition, at the kernel's end-index column, of a row gather at the
    kernel's start-index column. -/
theorem ref_v22_eq (wfs : ScatterDims.WF ⟨2, ![10000, 512]⟩ ⟨2, ![320000, 1]⟩ ⟨2, ![320000, 512]⟩ [1] [0] [0] 1) :
    @Eq (FVec Ideal ⟨2, ![10000, 512]⟩ .f32) (val_main_v22 (F := Ideal) a0 a1 a2)
      (Host.scatterAdd (rowScatter 10000 320000 512 wfs) (val_main_v20 (F := Ideal)) (dstIdx a2) (val_main_v19 (F := Ideal) a0 a1)) := rfl
theorem ref_v19_eq (wfg : GatherDims.WF ⟨2, ![10000, 512]⟩ ⟨2, ![320000, 1]⟩ ⟨2, ![320000, 512]⟩ [1] [0] [] [0] [] 1 ![1, 512]) :
    @Eq (FVec Ideal ⟨2, ![320000, 512]⟩ .f32) (val_main_v19 (F := Ideal) a0 a1)
      (Host.gather (rowGather 10000 320000 512 wfg) (val_main_v12 (F := Ideal) a0 a1) (srcIdx a1)) := rfl
/-- The zero array the aggregation starts from. -/
theorem ref_v20_apply (i : Cert.ReferenceIdeal.S10000x512.Idx) : val_main_v20 (F := Ideal) i = Ideal.ofBits .f32 0x00000000#32 := rfl

/-- A scaled feature of the reference: the feature times the source row's degree factor. -/
theorem ref_v12_apply (r : Fin 10000) (k : Fin 512) :
    val_main_v12 (F := Ideal) a0 a1 (ix2 r k) = a0 (ix2 r k) * invSqrtDeg a1 (ix2 r (0 : Fin 1)) := by
  rw [val_main_v12_apply, val_main_v11_apply, ref_srcScale, Ideal.mulf_def]
  rw [show idx_main_v11 (ix2 r k) = ix2 r (0 : Fin 1) from funext fun a => by
    match a with
    | ⟨0, _⟩ => rfl
    | ⟨1, _⟩ => rfl]

/-- The reference's aggregated 512-wide array at an index: zero plus the sum over the edges landing on the node of the scaled
    feature of the source row. -/
theorem ref_aggregate512_apply (v : Fin 10000) (k : Fin 512) :
    val_main_v22 (F := Ideal) a0 a1 a2 (ix2 v k)
      = Ideal.ofBits .f32 0x00000000#32 + ∑ e ∈ edgesOf a2 v, a0 (ix2 (rowOf a1 e) k) * invSqrtDeg a1 (ix2 (rowOf a1 e) (0 : Fin 1)) := by
  have wfs : ScatterDims.WF ⟨2, ![10000, 512]⟩ ⟨2, ![320000, 1]⟩ ⟨2, ![320000, 512]⟩ [1] [0] [0] 1 :=
    Cert.ReferenceIdeal.scatter_S10000x512_S320000x1_S320000x512_1_0_0_1.wf
  have wfg : GatherDims.WF ⟨2, ![10000, 512]⟩ ⟨2, ![320000, 1]⟩ ⟨2, ![320000, 512]⟩ [1] [0] [] [0] [] 1 ![1, 512] :=
    Cert.ReferenceIdeal.gather_S10000x512_S320000x1_S320000x512_1_0_n_n_0_1_1512.wf
  rw [ref_v22_eq a0 a1 a2 wfs, rowScatterAdd_apply, ref_v20_apply, ref_v19_eq a0 a1 wfg]
  refine congrArg (Ideal.ofBits .f32 0x00000000#32 + ·) (Finset.sum_congr rfl fun e _ => ?_)
  rw [rowGather_apply (by decide), ref_v12_apply]

/-- The reference's scaled aggregate: the aggregate times the end node's degree factor. -/
theorem ref_v26_apply (v : Fin 10000) (k : Fin 512) :
    val_main_v26 (F := Ideal) a0 a1 a2 (ix2 v k)
      = (0 + ∑ e ∈ edgesOf a2 v, a0 (ix2 (rowOf a1 e) k) * invSqrtDeg a1 (ix2 (rowOf a1 e) (0 : Fin 1))) * invSqrtDeg a2 (ix2 v (0 : Fin 1)) := by
  rw [val_main_v26_apply, Ideal.mulf_def, ref_aggregate512_apply, Ideal.ofBits_zero_f32, val_main_v25_apply, ref_dstScale]
  rw [show idx_main_v25 (ix2 v k) = ix2 v (0 : Fin 1) from funext fun a => by
    match a with
    | ⟨0, _⟩ => rfl
    | ⟨1, _⟩ => rfl]

/-- A projected-and-scaled entry, spelt out. -/
theorem projScale_apply (X : Cert.KernelIdeal.S10000x512.Idx → EReal) (W : Cert.KernelIdeal.S512x256.Idx → EReal)
    (s : Cert.KernelIdeal.S10000x1.Idx → EReal) (r : Fin 10000) (j : Fin 256) :
    projScale X W s (ix2 r j) = (∑ k : Fin 512, X (ix2 r k) * W (ix2 k j)) * s (ix2 r (0 : Fin 1)) := rfl

/-- The reference's first dense product at an index is the kernel's aggregated projected entry times the node's factor. -/
theorem ref_dense1_apply (hx : IsReal a0) (hw : IsReal a4) (v : Fin 10000) (j : Fin 256) :
    (∑ k : Fin 512, val_main_v26 (F := Ideal) a0 a1 a2 (ix2 v k) * a4 (ix2 k j))
      = aggregate (projScale a0 a4 (invSqrtDeg a1)) a1 a2 (ix2 v j) * invSqrtDeg a2 (ix2 v (0 : Fin 1)) := by
  rw [aggregate_apply, Ideal.ofBits_zero_f32]
  simp only [ref_v26_apply, projScale_apply]
  exact (Cert.RowSumLaw.aggregate_then_map (edgesOf a2 v) (fun e k => a0 (ix2 (rowOf a1 e) k))
    (fun e => invSqrtDeg a1 (ix2 (rowOf a1 e) (0 : Fin 1))) (invSqrtDeg a2 (ix2 v (0 : Fin 1))) (fun k => a4 (ix2 k j))
    (fun e k => hx _) (fun e => isReal_invSqrtDeg a1 _) (isReal_invSqrtDeg a2 _) (fun k => hw _)).symm

end Cert.Bridge

end
-- ==== Proof.RefHidden.lean ====
/-
  The reference's hidden layer is the kernel's, for real features and weights.

  Entry (v, j) of the reference's hidden array is max(dense(v, j) + bias(j), 0) times the source-side factor of v, where dense is
  the product of the scaled aggregate with the weight matrix; by the first layer's law dense(v, j) is the kernel's aggregated
  projected entry times the end-side factor of v, which is what the kernel's affine-rectify-rescale stage starts from.
-/
import proofs.«147585_j10024453669132_2_alg».proof.Proof.RefLayer1
import proofs.«147585_j10024453669132_2_alg».proof.Proof.KPipeline

noncomputable section

namespace Cert.Bridge

open Idealize.ShloMosaic Idealize.ShloMosaic.ValueIdx Cert.KernelIdeal.Layers Cert.Finite Cert.EdgeRows
open Cert.ReferenceIdeal.Read
open scoped BigOperators

variable (a0 : FVec Ideal Cert.KernelIdeal.S10000x512 .f32) (a1 a2 : IVec Cert.KernelIdeal.S320000 32)
  (a4 : FVec Ideal Cert.KernelIdeal.S512x256 .f32) (a5 : FVec Ideal Cert.KernelIdeal.S256 .f32)

/-- The reference's second copy of the source-side degree scale is the kernel's. -/
theorem ref_srcScale2 : val_main_v42 (F := Ideal) a1 = invSqrtDeg a1 := rfl

/-- An affine-rectify-rescale entry, spelt out. -/
theorem affineReluScale_apply (A : Cert.KernelIdeal.S10000x256.Idx → EReal) (d : Cert.KernelIdeal.S10000x1.Idx → EReal)
    (b : Cert.KernelIdeal.S256.Idx → EReal) (s : Cert.KernelIdeal.S10000x1.Idx → EReal) (v : Fin 10000) (j : Fin 256) :
    affineReluScale A d b s (ix2 v j)
      = max (A (ix2 v j) * d (ix2 v (0 : Fin 1)) + b (ix1 j)) (Ideal.ofBits .f32 0x00000000#32) * s (ix2 v (0 : Fin 1)) := rfl

/-- The reference's hidden array is the kernel's hidden stage of the same arguments. -/
theorem ref_hidden (hx : IsReal a0) (hw : IsReal a4) :
    @Eq (FVec Ideal Cert.KernelIdeal.S10000x256 .f32) (val_main_v44 (F := Ideal) a0 a1 a2 a4 a5) (Cert.KernelIdeal.Layers.hidden a0 a1 a2 a4 a5) := by
  funext i
  obtain ⟨v, j, rfl⟩ : ∃ (v : Fin 10000) (j : Fin 256), i = ix2 v j := ⟨i 0, i 1, eq_ix2 i⟩
  unfold Cert.KernelIdeal.Layers.hidden
  rw [affineReluScale_apply, ← ref_dense1_apply a0 a1 a2 a4 hx hw v j]
  rw [val_main_v44_apply, val_main_v31_apply, val_main_v30_apply, val_main_v27_apply, val_main_v29_apply, val_main_v28_apply,
    val_main_call2_v0_apply, val_main_call2_cst_apply, val_main_v43_apply, ref_srcScale2]
  have hl : ∀ k : Fin 512, lidx_main_v27 (ix2 v j) k = ix2 v k := fun k => funext fun a => by
    match a with
    | ⟨0, _⟩ => rfl
    | ⟨1, _⟩ => rfl
  have hr : ∀ k : Fin 512, ridx_main_v27 (ix2 v j) k = ix2 k j := fun k => funext fun a => by
    match a with
    | ⟨0, _⟩ => rfl
    | ⟨1, _⟩ => rfl
  have hb : idx_main_v28 (idx_main_v29 (ix2 v j)) = ix1 j := funext fun a => by
    match a with
    | ⟨0, _⟩ => rfl
  have hs : idx_main_v43 (ix2 v j) = ix2 v (0 : Fin 1) := funext fun a => by
    match a with
    | ⟨0, _⟩ => rfl
    | ⟨1, _⟩ => rfl
  simp only [hl, hr]
  rw [hb, hs, Ideal.mulf_def, Ideal.maximumf_def, Ideal.addf_def, Ideal.ofBits_def]

end Cert.Bridge

end
-- ==== Proof.RefLayer2.lean ====
/-
  The second graph layer and the decoder: the reference's arrangement is the kernel's.

  Both programs scale every aggregated row by its node's degree factor, project it through the two second-layer weight matrices
  and add the two biases, then add to the first projection the noise times the exponential of the second, and finally take the
  logistic function of every pair of latent rows' inner product. The reference does the two projections one after the other,
  each with its own matrix and bias; the kernel does them at once through the two matrices side by side and the two biases end
  to end, reading columns q and 128 + q. Column q of the side-by-side matrix is column q of the first, column 128 + q is column
  q of the second, and the same for the biases, so entry by entry the two arrangements are one expression. The reference spells
  the logistic function as 1 / (1 + exp(−x)) with the constant one written as a float pattern that denotes 1; that is the
  logistic function's definition. No reordering of sums is involved, so nothing needs to be finite.
-/
import proofs.«147585_j10024453669132_2_alg».proof.Proof.Gen.ReferenceIdeal.Read
import proofs.«147585_j10024453669132_2_alg».proof.Proof.KPipeline
import Idealize.ShloMosaic.Lib.IdealHost

noncomputable section

namespace Cert.Bridge

open Cert.KernelIdeal.Layers Cert.ReferenceIdeal.Read Idealize.ShloMosaic Idealize.ShloMosaic.ValueIdx
open scoped BigOperators

variable (a0 : FVec Ideal Cert.KernelIdeal.S10000x512 .f32) (a1 a2 : IVec Cert.KernelIdeal.S320000 32)
  (a3 : FVec Ideal Cert.KernelIdeal.S10000x128 .f32) (a4 : FVec Ideal Cert.KernelIdeal.S512x256 .f32)
  (a5 : FVec Ideal Cert.KernelIdeal.S256 .f32) (a6 : FVec Ideal Cert.KernelIdeal.S256x128 .f32)
  (a7 : FVec Ideal Cert.KernelIdeal.S128 .f32) (a8 : FVec Ideal Cert.KernelIdeal.S256x128 .f32)
  (a9 : FVec Ideal Cert.KernelIdeal.S128 .f32)

/-! ## The decoder -/

/-- The decoded array at `(v, q)`, from any indices with the coordinates of rows `v` and `q`, any array equal to the second
    operand entry by entry, and any two numbers equal to one: `1 / (1 + exp(−x))` at the inner product `x` of the two rows. -/
theorem decode_ix2 (Z Y : Cert.KernelIdeal.S10000x128.Idx → EReal) (v q : Fin 10000)
    (L R : Fin 128 → Cert.KernelIdeal.S10000x128.Idx) (hL : ∀ k, L k = ix2 v k) (hR : ∀ k, R k = ix2 q k)
    (y : Cert.KernelIdeal.S10000x128.Idx → EReal) (hy : ∀ j, y j = Y j) (o1 o2 : EReal) (h1 : o1 = 1) (h2 : o2 = 1) :
    Ideal.div o1 (o2 + Ideal.exp (-(∑ k : Fin 128, Z (L k) * y (R k)))) = decode Z Y (ix2 v q) := by
  obtain rfl : L = fun k => ix2 v k := funext hL
  obtain rfl : R = fun k => ix2 q k := funext hR
  obtain rfl : y = Y := funext hy
  subst h1 h2
  rfl

/-- THE DECODER: the reference's last stage, the logistic function spelt out over the inner products of the latent rows, is the
    kernel's decoding of the latent array against its own narrowed copy. -/
theorem ref_decode (Z : FVec Ideal Cert.KernelIdeal.S10000x128 .f32)
    (h96 : val_main_v96 (F := Ideal) a0 a1 a2 a3 a4 a5 a6 a7 a8 a9 = Z) :
    val_main_v104 (F := Ideal) a0 a1 a2 a3 a4 a5 a6 a7 a8 a9
      = decode Z (truncf .bf16 Z Cert.KernelIdeal.Gen.bitsLt_bf16_f32) := by
  funext i
  obtain ⟨v, q, rfl⟩ : ∃ (v : Fin 10000) (q : Fin 10000), i = ix2 v q := ⟨i 0, i 1, eq_ix2 i⟩
  rw [val_main_v104_apply, val_main_v103_apply, val_main_cst_23_apply, val_main_v102_apply, val_main_v101_apply,
    val_main_cst_22_apply, val_main_v100_apply, val_main_v99_apply, val_main_v98_apply]
  simp only [val_main_v97_apply]
  rw [h96]
  refine decode_ix2 Z (truncf .bf16 Z Cert.KernelIdeal.Gen.bitsLt_bf16_f32) v q
    (fun k => lidx_main_v98 (ix2 v q) k) (fun k => idx_main_v97 (ridx_main_v98 (ix2 v q) k)) ?_ ?_ Z (fun _ => rfl)
    (Ideal.ofBits .f32 0x3F800000#32) (Ideal.ofBits .f32 0x3F800000#32) Ideal.ofBits_one_f32 Ideal.ofBits_one_f32
  · intro k; funext a
    match a with
    | ⟨0, _⟩ => rfl
    | ⟨1, _⟩ => rfl
  · intro k; funext a
    match a with
    | ⟨0, _⟩ => rfl
    | ⟨1, _⟩ => rfl

/-! ## The two matrices side by side, the two biases end to end -/

/-- Column `q` of the left half of the side-by-side matrix is column `q` of the first matrix. -/
theorem weightsCat_lo (a6 a8 : FVec Ideal Cert.KernelIdeal.S256x128 .f32) (k : Fin 256) (q : Fin 128) :
    weightsCat a6 a8 (ix2 k (lo q)) = a6 (ix2 k q) := by
  unfold weightsCat
  exact concatenate_pair_apply_left _ a6 a8 _ (ix2 k (lo q)) rfl (ix2 k q) (fun b => match b with
    | ⟨0, _⟩ => rfl
    | ⟨1, _⟩ => rfl)

/-- Column `128 + q` of the side-by-side matrix is column `q` of the second matrix. -/
theorem weightsCat_hi (a6 a8 : FVec Ideal Cert.KernelIdeal.S256x128 .f32) (k : Fin 256) (q : Fin 128) :
    weightsCat a6 a8 (ix2 k (hi q)) = a8 (ix2 k q) := by
  unfold weightsCat
  exact concatenate_pair_apply_right _ a6 a8 _ (ix2 k (hi q)) rfl rfl (ix2 k q) (fun b hb => match b, hb with
    | ⟨0, _⟩, _ => rfl
    | ⟨1, _⟩, hb => absurd rfl hb) (by show q.val + 128 = 128 + q.val; omega)

/-- Entry `q` of the end-to-end bias is entry `q` of the first bias. -/
theorem biasCat_lo (a7 a9 : FVec Ideal Cert.KernelIdeal.S128 .f32) (q : Fin 128) :
    biasCat a7 a9 (ix1 (lo q)) = a7 (ix1 q) := by
  unfold biasCat
  exact concatenate_pair_apply_left _ a7 a9 _ (ix1 (lo q)) rfl (ix1 q) (fun b => match b with
    | ⟨0, _⟩ => rfl)

/-- Entry `128 + q` of the end-to-end bias is entry `q` of the second bias. -/
theorem biasCat_hi (a7 a9 : FVec Ideal Cert.KernelIdeal.S128 .f32) (q : Fin 128) :
    biasCat a7 a9 (ix1 (hi q)) = a9 (ix1 q) := by
  unfold biasCat
  exact concatenate_pair_apply_right _ a7 a9 _ (ix1 (hi q)) rfl rfl (ix1 q) (fun b hb => match b, hb with
    | ⟨0, _⟩, hb => absurd rfl hb) (by show q.val + 128 = 128 + q.val; omega)

/-! ## One projection of the scaled aggregated rows -/

/-- The reference's end-side degree scale, as the second layer's first projection reads it, is the kernel's. -/
theorem ref_scale56 : val_main_v56 (F := Ideal) a2 = invSqrtDeg a2 := rfl
/-- … and as its second projection reads it. -/
theorem ref_scale87 : val_main_v87 (F := Ideal) a2 = invSqrtDeg a2 := rfl

/-- A scaled row through one matrix plus its bias, at `(v, q)`, from any indices with the right coordinates. -/
theorem affine_ix2 (G : Cert.KernelIdeal.S10000x256.Idx → EReal) (d : Cert.KernelIdeal.S10000x1.Idx → EReal)
    (w : Cert.KernelIdeal.S256x128.Idx → EReal) (b : Cert.KernelIdeal.S128.Idx → EReal) (v : Fin 10000) (q : Fin 128)
    (L : Fin 256 → Cert.KernelIdeal.S10000x256.Idx) (D : Fin 256 → Cert.KernelIdeal.S10000x1.Idx)
    (R : Fin 256 → Cert.KernelIdeal.S256x128.Idx) (B : Cert.KernelIdeal.S128.Idx)
    (hL : ∀ k, L k = ix2 v k) (hD : ∀ k, D k = ix2 v (0 : Fin 1)) (hR : ∀ k, R k = ix2 k q) (hB : B = ix1 q) :
    (∑ k : Fin 256, (G (L k) * d (D k)) * w (R k)) + b B
      = (∑ k : Fin 256, (G (ix2 v k) * d (ix2 v (0 : Fin 1))) * w (ix2 k q)) + b (ix1 q) := by
  obtain rfl : L = fun k => ix2 v k := funext hL
  obtain rfl : D = fun _ => ix2 v (0 : Fin 1) := funext hD
  obtain rfl : R = fun k => ix2 k q := funext hR
  subst hB
  rfl

/-- The reference's first projection at `(v, q)`: the scaled aggregated row through the first matrix, plus the first bias. -/
theorem ref_left_apply (G : FVec Ideal Cert.KernelIdeal.S10000x256 .f32)
    (h54 : val_main_v54 (F := Ideal) a0 a1 a2 a4 a5 = G) (v : Fin 10000) (q : Fin 128) :
    val_main_v62 (F := Ideal) a0 a1 a2 a4 a5 a6 a7 (ix2 v q)
      = (∑ k : Fin 256, (G (ix2 v k) * invSqrtDeg a2 (ix2 v (0 : Fin 1))) * a6 (ix2 k q)) + a7 (ix1 q) := by
  rw [val_main_v62_apply, val_main_v59_apply, val_main_v61_apply, val_main_v60_apply]
  simp only [val_main_v58_apply, val_main_v57_apply]
  rw [h54, ref_scale56]
  generalize invSqrtDeg a2 = d
  simp only [Ideal.addf_def, Ideal.mulf_def]
  refine affine_ix2 G d a6 a7 v q (fun k => lidx_main_v59 (ix2 v q) k)
    (fun k => idx_main_v57 (lidx_main_v59 (ix2 v q) k)) (fun k => ridx_main_v59 (ix2 v q) k)
    (idx_main_v60 (idx_main_v61 (ix2 v q))) ?_ ?_ ?_ ?_
  · intro k; funext a
    match a with
    | ⟨0, _⟩ => rfl
    | ⟨1, _⟩ => rfl
  · intro k; funext a
    match a with
    | ⟨0, _⟩ => rfl
    | ⟨1, _⟩ => rfl
  · intro k; funext a
    match a with
    | ⟨0, _⟩ => rfl
    | ⟨1, _⟩ => rfl
  · funext a
    match a with
    | ⟨0, _⟩ => rfl

/-- The reference's second projection at `(v, q)`: the same row through the second matrix, plus the second bias. -/
theorem ref_right_apply (G : FVec Ideal Cert.KernelIdeal.S10000x256 .f32)
    (h85 : val_main_v85 (F := Ideal) a0 a1 a2 a4 a5 = G) (v : Fin 10000) (q : Fin 128) :
    val_main_v93 (F := Ideal) a0 a1 a2 a4 a5 a8 a9 (ix2 v q)
      = (∑ k : Fin 256, (G (ix2 v k) * invSqrtDeg a2 (ix2 v (0 : Fin 1))) * a8 (ix2 k q)) + a9 (ix1 q) := by
  rw [val_main_v93_apply, val_main_v90_apply, val_main_v92_apply, val_main_v91_apply]
  simp only [val_main_v89_apply, val_main_v88_apply]
  rw [h85, ref_scale87]
  generalize invSqrtDeg a2 = d
  simp only [Ideal.addf_def, Ideal.mulf_def]
  refine affine_ix2 G d a8 a9 v q (fun k => lidx_main_v90 (ix2 v q) k)
    (fun k => idx_main_v88 (lidx_main_v90 (ix2 v q) k)) (fun k => ridx_main_v90 (ix2 v q) k)
    (idx_main_v91 (idx_main_v92 (ix2 v q))) ?_ ?_ ?_ ?_
  · intro k; funext a
    match a with
    | ⟨0, _⟩ => rfl
    | ⟨1, _⟩ => rfl
  · intro k; funext a
    match a with
    | ⟨0, _⟩ => rfl
    | ⟨1, _⟩ => rfl
  · intro k; funext a
    match a with
    | ⟨0, _⟩ => rfl
    | ⟨1, _⟩ => rfl
  · funext a
    match a with
    | ⟨0, _⟩ => rfl

/-! ## The latent rows -/

/-- The kernel's latent array at `(v, q)`, from any numbers equal to the side-by-side matrix's and the end-to-end bias's
    entries in columns `q` and `128 + q`. -/
theorem encode_ix2 (G : Cert.KernelIdeal.S10000x256.Idx → EReal) (W : Cert.KernelIdeal.S256x256.Idx → EReal)
    (b : Cert.KernelIdeal.S256.Idx → EReal) (d : Cert.KernelIdeal.S10000x1.Idx → EReal)
    (n : Cert.KernelIdeal.S10000x128.Idx → EReal) (v : Fin 10000) (q : Fin 128)
    (w6 w8 : Fin 256 → EReal) (b7 b9 : EReal)
    (hw6 : ∀ k, W (ix2 k (lo q)) = w6 k) (hw8 : ∀ k, W (ix2 k (hi q)) = w8 k)
    (hb7 : b (ix1 (lo q)) = b7) (hb9 : b (ix1 (hi q)) = b9) :
    encode G W b d n (ix2 v q)
      = ((∑ k : Fin 256, (G (ix2 v k) * d (ix2 v (0 : Fin 1))) * w6 k) + b7)
        + n (ix2 v q) * Ideal.exp ((∑ k : Fin 256, (G (ix2 v k) * d (ix2 v (0 : Fin 1))) * w8 k) + b9) := by
  obtain rfl : (fun k => W (ix2 k (lo q))) = w6 := funext hw6
  obtain rfl : (fun k => W (ix2 k (hi q))) = w8 := funext hw8
  subst hb7 hb9
  rfl

/-- THE SECOND LAYER: the reference's latent array — two projections of the scaled aggregated rows, the first plus the noise
    times the exponential of the second — is the kernel's, through the two matrices side by side and the two biases end to end,
    whenever the two programs' aggregated arrays are one array `G`. -/
theorem ref_latent (G : FVec Ideal Cert.KernelIdeal.S10000x256 .f32)
    (h54 : val_main_v54 (F := Ideal) a0 a1 a2 a4 a5 = G) (h85 : val_main_v85 (F := Ideal) a0 a1 a2 a4 a5 = G) :
    val_main_v96 (F := Ideal) a0 a1 a2 a3 a4 a5 a6 a7 a8 a9
      = encode G (weightsCat a6 a8) (biasCat a7 a9) (invSqrtDeg a2) a3 := by
  funext i
  obtain ⟨v, q, rfl⟩ : ∃ (v : Fin 10000) (q : Fin 128), i = ix2 v q := ⟨i 0, i 1, eq_ix2 i⟩
  rw [val_main_v96_apply, val_main_v95_apply, val_main_v94_apply,
    ref_left_apply a0 a1 a2 a4 a5 a6 a7 G h54 v q, ref_right_apply a0 a1 a2 a4 a5 a8 a9 G h85 v q]
  generalize invSqrtDeg a2 = d
  simp only [Ideal.addf_def, Ideal.mulf_def, Ideal.hostUnary_exp_def]
  rw [encode_ix2 G (weightsCat a6 a8) (biasCat a7 a9) d a3 v q (fun k => a6 (ix2 k q)) (fun k => a8 (ix2 k q))
    (a7 (ix1 q)) (a9 (ix1 q)) (fun k => weightsCat_lo a6 a8 k q) (fun k => weightsCat_hi a6 a8 k q)
    (biasCat_lo a7 a9 q) (biasCat_hi a7 a9 q)]

end Cert.Bridge

end
-- ==== Proof.RefBridge.lean ====
/-
  The reference's result is the kernel's value function of the same arguments, when the features and the first weights are real.

  Layer by layer: the hidden arrays agree by the first layer's law; the reference aggregates the hidden array twice, once for each
  head, with the same gather and scatter as the kernel's one aggregation; the two heads' products, biases and the
  reparameterisation are the kernel's projection through the side-by-side weights; the decoder is the logistic function of the same
  inner products on both sides.
-/
import proofs.«147585_j10024453669132_2_alg».proof.Proof.RefHidden
import proofs.«147585_j10024453669132_2_alg».proof.Proof.RefLayer2

noncomputable section

namespace Cert.Bridge

open Idealize.ShloMosaic Idealize.ShloMosaic.ValueIdx Cert.KernelIdeal.Layers Cert.Finite
open Cert.ReferenceIdeal.Read

variable (a0 : FVec Ideal Cert.KernelIdeal.S10000x512 .f32) (a1 a2 : IVec Cert.KernelIdeal.S320000 32)
  (a3 : FVec Ideal Cert.KernelIdeal.S10000x128 .f32) (a4 : FVec Ideal Cert.KernelIdeal.S512x256 .f32)
  (a5 : FVec Ideal Cert.KernelIdeal.S256 .f32) (a6 : FVec Ideal Cert.KernelIdeal.S256x128 .f32) (a7 : FVec Ideal Cert.KernelIdeal.S128 .f32)
  (a8 : FVec Ideal Cert.KernelIdeal.S256x128 .f32) (a9 : FVec Ideal Cert.KernelIdeal.S128 .f32)

/-- The reference's aggregation for the first head is the kernel's aggregation of the reference's hidden array. -/
theorem ref_aggregate_mean : @Eq (FVec Ideal Cert.KernelIdeal.S10000x256 .f32) (val_main_v54 (F := Ideal) a0 a1 a2 a4 a5)
    (aggregate (val_main_v44 (F := Ideal) a0 a1 a2 a4 a5) a1 a2) := rfl
/-- The reference's second copy of the rescaled hidden array is the first. -/
theorem ref_hidden_again : @Eq (FVec Ideal Cert.KernelIdeal.S10000x256 .f32) (val_main_v75 (F := Ideal) a0 a1 a2 a4 a5)
    (val_main_v44 (F := Ideal) a0 a1 a2 a4 a5) := rfl
/-- The reference's aggregation for the second head is the same aggregation. -/
theorem ref_aggregate_logstd : @Eq (FVec Ideal Cert.KernelIdeal.S10000x256 .f32) (val_main_v85 (F := Ideal) a0 a1 a2 a4 a5)
    (aggregate (val_main_v75 (F := Ideal) a0 a1 a2 a4 a5) a1 a2) := rfl

/-- The reference's result is the kernel's value function. -/
theorem ref_value (hx : IsReal a0) (hw : IsReal a4) :
    @Eq (FVec Ideal Cert.KernelIdeal.S10000x10000 .f32) (val_main_v104 (F := Ideal) a0 a1 a2 a3 a4 a5 a6 a7 a8 a9)
      (kernelValue a0 a1 a2 a3 a4 a5 a6 a7 a8 a9) := by
  have hh := ref_hidden a0 a1 a2 a4 a5 hx hw
  have h54 : @Eq (FVec Ideal Cert.KernelIdeal.S10000x256 .f32) (val_main_v54 (F := Ideal) a0 a1 a2 a4 a5)
      (aggregate (Cert.KernelIdeal.Layers.hidden a0 a1 a2 a4 a5) a1 a2) := by
    rw [ref_aggregate_mean, hh]
  have h85 : @Eq (FVec Ideal Cert.KernelIdeal.S10000x256 .f32) (val_main_v85 (F := Ideal) a0 a1 a2 a4 a5)
      (aggregate (Cert.KernelIdeal.Layers.hidden a0 a1 a2 a4 a5) a1 a2) := by
    rw [ref_aggregate_logstd, ref_hidden_again, hh]
  have h96 := ref_latent a0 a1 a2 a3 a4 a5 a6 a7 a8 a9 _ h54 h85
  exact ref_decode a0 a1 a2 a3 a4 a5 a6 a7 a8 a9 _ h96

end Cert.Bridge

end
-- ==== Proof.PreReal.lean ====
/-
  FROM THE PRECONDITION TO REAL ENTRIES.

  The precondition tests, for every float argument array, that every entry's absolute value is below `+∞` — a comparison
  `|x| < +∞` at every index, all the answers conjoined by a reduction by `and` from `1` — and conjoins the eight answers.
  A conjunction of one-bit words is `1` only when both are, so from the whole being `1` each array's own test is `1`; a
  reduction by `and` over all axes that is `1` met a `1` at every index; and `|x| < +∞` answers `1` only at a real
  number `x` (the bound's pattern, exponent all ones and mantissa zero, denotes `+∞`). Hence every entry of the feature array
  (argument 0) and of the first weight matrix (argument 4) is a real number.
-/
import proofs.«147585_j10024453669132_2_alg».proof.Pre_finite_inputs
import proofs.«147585_j10024453669132_2_alg».proof.Proof.LibFinite
import Idealize.ShloMosaic.Lib.ReduceAll
import Idealize.ShloMosaic.Lib.ValueIdx

noncomputable section

open Idealize.ShloMosaic Idealize.ShloMosaic.ValueIdx

namespace Cert.PreReal

open Cert.Pre_finite_inputs

/-- The scalar shape has one index. -/
instance : Subsingleton S_.Idx := ⟨fun _ _ => funext fun d => d.elim0⟩

/-- The bound every entry is compared with — sign 0, exponent all ones, mantissa 0 — denotes `+∞`. -/
theorem ofBits_inf : Ideal.ofBits .f32 0x7F800000#32 = (⊤ : EReal) := by
  simp [Ideal.ofBits, Ideal.ieee]

/-- ONE ARRAY'S TEST: when the conjunction over all indices of `|x i| < +∞` is `1`, every entry of `x` is a real number. -/
theorem isReal_of_test {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
        (cmpf .olt (Host.absf x) (broadcastInDim s ![] hb (constant (F := Ideal) S_ .f32 0x7F800000#32)))
        (constantI S_ 1 1#1) hr hu j = 1#1) :
    Cert.Finite.IsReal x := fun i =>
  Cert.Finite.isRealVal_of_cmpf_abs (x i) (Ideal.ofBits .f32 0x7F800000#32) ofBits_inf
    (Host.reduce_andi_all _ _ hr hu j e i)

/-- THE PRECONDITION GIVES REAL ENTRIES: when it holds, the feature array (argument 0) and the first weight matrix
    (argument 4) have only real entries. -/
theorem real_of_pre [Cert.Pre_finite_inputs.Facts] (a0 : FVec Ideal Cert.Pre_finite_inputs.S10000x512 .f32)
    (a1 a2 : IVec Cert.Pre_finite_inputs.S320000 32) (a3 : FVec Ideal Cert.Pre_finite_inputs.S10000x128 .f32)
    (a4 : FVec Ideal Cert.Pre_finite_inputs.S512x256 .f32) (a5 : FVec Ideal Cert.Pre_finite_inputs.S256 .f32)
    (a6 : FVec Ideal Cert.Pre_finite_inputs.S256x128 .f32) (a7 : FVec Ideal Cert.Pre_finite_inputs.S128 .f32)
    (a8 : FVec Ideal Cert.Pre_finite_inputs.S256x128 .f32) (a9 : FVec Ideal Cert.Pre_finite_inputs.S128 .f32)
    (h : Cert.Pre_finite_inputs.fn (F := Ideal) a0 a1 a2 a3 a4 a5 a6 a7 a8 a9 = fun _ => 1#1) :
    Cert.Finite.IsReal a0 ∧ Cert.Finite.IsReal a4 := by
  have h38 := congrFun h ix0
  dsimp only [Cert.Pre_finite_inputs.fn, Cert.Pre_finite_inputs.fn_part1, Cert.Pre_finite_inputs.fn_part2,
    Idealize.ShloMosaic.andi] at h38
  -- the eight tests' answers, conjoined from the left: peel the last five, then split off argument 4's and argument 0's
  obtain ⟨h33, -⟩ := IntOp.andi_eq_one.1 h38
  obtain ⟨h28, -⟩ := IntOp.andi_eq_one.1 h33
  obtain ⟨h23, -⟩ := IntOp.andi_eq_one.1 h28
  obtain ⟨h18, -⟩ := IntOp.andi_eq_one.1 h23
  obtain ⟨h13, -⟩ := IntOp.andi_eq_one.1 h18
  obtain ⟨h8, h12⟩ := IntOp.andi_eq_one.1 h13
  obtain ⟨h3, -⟩ := IntOp.andi_eq_one.1 h8
  exact ⟨isReal_of_test a0 Facts.bcast_S_S10000x512 Facts.reducesTo_S10000x512_S_d0_1 Facts.h_S_ ix0 h3,
    isReal_of_test a4 Facts.bcast_S_S512x256 Facts.reducesTo_S512x256_S_d0_1 Facts.h_S_ ix0 h12⟩

end Cert.PreReal

end
-- ==== Proof.lean ====
/-
  A variational graph auto-encoder's forward pass: a Pallas pipeline against its jnp reference, on the extended reals.

  Both programs compute, from node features, an edge list and noise, two graph-convolution layers (degree-normalised aggregation
  over the edges, a dense layer, a rectifier; then two dense heads, mean and log-deviation, joined by the reparameterisation
  mean + noise · exp(log-deviation)) and decode the latent rows z by the logistic function of z · zᵀ.
  The kernel differs from the reference in ONE arrangement: in the first layer it applies the weight matrix to every node's
  features before aggregating over the edges (256-wide rows travel instead of 512-wide ones), where the reference aggregates first.
  For real features, weights and degree factors the two orders of the finite double sum agree; the precondition makes the
  features and weights real, and a degree clamped at one has a real reciprocal square root. Everything else — the second layer
  with its two weight matrices side by side, the exponential, the decoder's contraction against the transposed latent array, the
  logistic function spelt as 1 / (1 + exp(−x)) — is the same function on both sides, index by index.

  The kernel's value is read off its run: four pipelined regions, each leaving in its output array one whole-array function of
  its operands (its blocks tile the array), between stretches of host operations that gather and scatter over the edges.
  The ideal pass rewrote nothing, so the idealization claim is the trivial one.
-/
import proofs.«147585_j10024453669132_2_alg».proof.Defs
import proofs.«147585_j10024453669132_2_alg».proof.Proof.Gen.Kernel
import proofs.«147585_j10024453669132_2_alg».proof.Proof.Gen.Kernel.Skeleton
import proofs.«147585_j10024453669132_2_alg».proof.Proof.Gen.Kernel.Launch
import proofs.«147585_j10024453669132_2_alg».proof.Proof.Gen.Kernel.Points
import proofs.«147585_j10024453669132_2_alg».proof.Proof.Gen.Kernel.Frame
import proofs.«147585_j10024453669132_2_alg».proof.Proof.Gen.KernelIdeal
import proofs.«147585_j10024453669132_2_alg».proof.Proof.Gen.KernelIdeal.Skeleton
import proofs.«147585_j10024453669132_2_alg».proof.Proof.Gen.KernelIdeal.Launch
import proofs.«147585_j10024453669132_2_alg».proof.Proof.Gen.KernelIdeal.Points
import proofs.«147585_j10024453669132_2_alg».proof.Proof.Gen.KernelIdeal.Frame
import proofs.«147585_j10024453669132_2_alg».proof.Proof.Gen.ReferenceIdeal
import proofs.«147585_j10024453669132_2_alg».proof.Proof.Gen.Pre_finite_inputs
import proofs.«147585_j10024453669132_2_alg».proof.Proof.Gen.ReferenceIdeal.Run
import proofs.«147585_j10024453669132_2_alg».proof.Proof.Gen.ReferenceIdeal.Read
import proofs.«147585_j10024453669132_2_alg».proof.Proof.KRun
import proofs.«147585_j10024453669132_2_alg».proof.Proof.KValue
import proofs.«147585_j10024453669132_2_alg».proof.Proof.RefBridge
import proofs.«147585_j10024453669132_2_alg».proof.Proof.PreReal
import Idealize.ShloMosaic.Adequacy
import Idealize.ShloMosaic.Init

noncomputable section

namespace Cert.Proof

open Idealize.ShloMosaic Idealize.SL.Sem

/-- The word-level kernel runs and leaves its arguments. -/
theorem frame_kernel : Cert.frame_Kernel := fun m ρ _ => Cert.Kernel.Gen.frame m ρ
/-- The idealized kernel runs and leaves its arguments. -/
theorem frame_kernelIdeal : Cert.frame_KernelIdeal := fun m ρ _ => Cert.KernelIdeal.Gen.frame m ρ
/-- The idealized reference runs and leaves its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the kernel's value function of the arguments in
    their result buffers: the kernel by its run read back, the reference by its run and the layer-by-layer comparison, where the
    precondition supplies that the features and the first weights are real. -/
theorem algebraic : Cert.algebraic_KernelIdeal_ReferenceIdeal := by
  intro m ρ m' ρ' hpre hagree
  refine ⟨fun c => Cert.KernelIdeal.Layers.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Layers.W12_v39 m ρ c), (h c).2⟩)
      (Cert.KernelIdeal.Layers.run_main m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9⟩ := hagree c
    obtain ⟨hx, hw⟩ := Cert.PreReal.real_of_pre _ _ _ _ _ _ _ _ _ _ (hpre c)
    rw [(h c).1, Cert.ReferenceIdeal.Read.val_main_v104_eq, e0, e1, e2, e3, e4, e5, e6, e7, e8, e9]
    exact Cert.Bridge.ref_value _ _ _ _ _ _ _ _ _ _ hx hw

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
